-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S128x10 .f32) (main_arg15 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg14
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg15
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128x128 .f32) (main_arg13 : FVec F S128 .f32) (main_arg14 : FVec F S128x10 .f32) (main_arg15 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S16x128 : Shape := ⟨2, ![16, 128]⟩
abbrev S50000x1 : Shape := ⟨2, ![50000, 1]⟩
abbrev S16x1 : Shape := ⟨2, ![16, 1]⟩
abbrev S1x10 : Shape := ⟨2, ![1, 10]⟩
abbrev S16x10 : Shape := ⟨2, ![16, 10]⟩

abbrev nBuf : Space → Nat
  | .hbm => 66
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x10, .f32⟩
  | .hbm, ⟨15, _⟩ => ⟨S10, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S_, .f32⟩
  | .hbm, ⟨49, _⟩ => ⟨S16x128, .f32⟩
  | .hbm, ⟨50, _⟩ => ⟨S50000x1, .i32⟩
  | .hbm, ⟨51, _⟩ => ⟨S16x128, .f32⟩
  | .hbm, ⟨52, _⟩ => ⟨S_, .f32⟩
  | .hbm, ⟨53, _⟩ => ⟨S50000x1, .f32⟩
  | .hbm, ⟨54, _⟩ => ⟨S_, .f32⟩
  | .hbm, ⟨55, _⟩ => ⟨S16x1, .f32⟩
  | .hbm, ⟨56, _⟩ => ⟨S50000x1, .i32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | .hbm, ⟨61, _⟩ => ⟨S16x128, .f32⟩
  | .hbm, ⟨62, _⟩ => ⟨S16x128, .f32⟩
  | .hbm, ⟨63, _⟩ => ⟨S1x128, .f32⟩
  | .hbm, ⟨64, _⟩ => ⟨S1x10, .f32⟩
  | .hbm, ⟨65, _⟩ => ⟨S16x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S16x128, .f32⟩
  | .local _ .vmem, ⟨21, _⟩ => ⟨S128x128, .f32⟩
  | .local _ .vmem, ⟨22, _⟩ => ⟨S1x128, .f32⟩
  | .local _ .vmem, ⟨23, _⟩ => ⟨S128x10, .f32⟩
  | .local _ .vmem, ⟨24, _⟩ => ⟨S1x10, .f32⟩
  | .local _ .vmem, ⟨25, _⟩ => ⟨S16x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S16x128 : S_.BroadcastsInDim S16x128 (![] : Fin 0 → Fin S16x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  shapeCasts_S10_S1x10 : S10.ShapeCasts S1x10
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S16x128 : S1x128.Broadcasts S16x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16x10 : S1x10.Broadcasts S16x10
  inb_S16x10_S16x10_0_0 : ∀ a, (![0, 0] : Fin 2 → Nat) a + S16x10.size a ≤ S16x10.size a
  h_S16x10 : 0 < S16x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S16x128_S50000x1_S50000x128_1_0_0_1_wf : ScatterDims.WF S16x128 S50000x1 S50000x128 [1] [0] [0] 1
  scatter_S16x1_S50000x1_S50000x1_1_0_0_1_wf : ScatterDims.WF S16x1 S50000x1 S50000x1 [1] [0] [0] 1
  dot_S16x128_S128x128_S16x128_1_0_0_1_n_n_wf : DotDims.WF S16x128 S128x128 S16x128 [1] [0] [0] [1] [] []
  dot_S16x128_S128x10_S16x10_1_0_0_1_n_n_wf : DotDims.WF S16x128 S128x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x128.size a ≤ S16x128.size a
  hwx2_0 : ∀ i : grid2.Coords, EltTy.bits .f32 = 32 ∨ (Rect.block (s := S16x128) S16x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x10.size a ≤ S16x10.size a
  hwx2_5 : ∀ i : grid2.Coords, EltTy.bits .f32 = 32 ∨ (Rect.block (s := S16x10) S16x10.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16x1_S50000x1_S50000x1_1_0_0_1 : ScatterDims S16x1 S50000x1 S50000x1 where
  updateWindowDims := [1]
  insertedWindowDims := [0]
  scatterDimsToOperandDims := [0]
  indexVectorDim := 1
  wf := scatter_S16x1_S50000x1_S50000x1_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S16x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S16x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S16x128 : Shape := ⟨2, ![16, 128]⟩
abbrev S50000x1 : Shape := ⟨2, ![50000, 1]⟩
abbrev S16x1 : Shape := ⟨2, ![16, 1]⟩
abbrev S16x10 : Shape := ⟨2, ![16, 10]⟩
abbrev S1x10 : Shape := ⟨2, ![1, 10]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x10, .f32⟩
  | .hbm, ⟨15, _⟩ => ⟨S10, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S16x128, .f32⟩
  | .hbm, ⟨74, _⟩ => ⟨S50000x1, .i32⟩
  | .hbm, ⟨75, _⟩ => ⟨S16x128, .f32⟩
  | .hbm, ⟨76, _⟩ => ⟨S_, .f32⟩
  | .hbm, ⟨77, _⟩ => ⟨S50000x1, .f32⟩
  | .hbm, ⟨78, _⟩ => ⟨S_, .f32⟩
  | .hbm, ⟨79, _⟩ => ⟨S16x1, .f32⟩
  | .hbm, ⟨80, _⟩ => ⟨S50000x1, .i32⟩
  | .hbm, ⟨81, _⟩ => ⟨S16x1, .f32⟩
  | .hbm, ⟨82, _⟩ => ⟨S_, .f32⟩
  | .hbm, ⟨83, _⟩ => ⟨S16x1, .f32⟩
  | .hbm, ⟨84, _⟩ => ⟨S16x1, .f32⟩
  | .hbm, ⟨85, _⟩ => ⟨S16x128, .f32⟩
  | .hbm, ⟨86, _⟩ => ⟨S16x128, .f32⟩
  | .hbm, ⟨87, _⟩ => ⟨S16x128, .f32⟩
  | .hbm, ⟨88, _⟩ => ⟨S1x128, .f32⟩
  | .hbm, ⟨89, _⟩ => ⟨S16x128, .f32⟩
  | .hbm, ⟨90, _⟩ => ⟨S16x128, .f32⟩
  | .hbm, ⟨91, _⟩ => ⟨S_, .f32⟩
  | .hbm, ⟨92, _⟩ => ⟨S16x128, .f32⟩
  | .hbm, ⟨93, _⟩ => ⟨S16x128, .f32⟩
  | .hbm, ⟨94, _⟩ => ⟨S16x10, .f32⟩
  | .hbm, ⟨95, _⟩ => ⟨S1x10, .f32⟩
  | .hbm, ⟨96, _⟩ => ⟨S16x10, .f32⟩
  | .hbm, ⟨97, _⟩ => ⟨S16x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_cst : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_cst : Ref sig .tc := ⟨.hbm, 41, rfl⟩
abbrev main_call1_v0 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_c_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call2_cst : Ref sig .tc := ⟨.hbm, 62, rfl⟩
abbrev main_call2_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call3_cst : Ref sig .tc := ⟨.hbm, 69, rfl⟩
abbrev main_call3_v0 : Ref sig .tc := ⟨.hbm, 70, rfl⟩
abbrev main_v41 : Ref sig .tc := ⟨.hbm, 71, rfl⟩
abbrev main_cst_4 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_cst_6 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_call4_cst : Ref sig .tc := ⟨.hbm, 91, rfl⟩
abbrev main_call4_v0 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S16x128 : S_.BroadcastsInDim S16x128 (![] : Fin 0 → Fin S16x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S16x128_S50000x1_S50000x128_1_0_0_1_wf : ScatterDims.WF S16x128 S50000x1 S50000x128 [1] [0] [0] 1
  scatter_S16x1_S50000x1_S50000x1_1_0_0_1_wf : ScatterDims.WF S16x1 S50000x1 S50000x1 [1] [0] [0] 1
  dot_S16x128_S128x128_S16x128_1_0_0_1_n_n_wf : DotDims.WF S16x128 S128x128 S16x128 [1] [0] [0] [1] [] []
  dot_S16x128_S128x10_S16x10_1_0_0_1_n_n_wf : DotDims.WF S16x128 S128x10 S16x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16x1_S50000x1_S50000x1_1_0_0_1 : ScatterDims S16x1 S50000x1 S50000x1 where
  updateWindowDims := [1]
  insertedWindowDims := [0]
  scatterDimsToOperandDims := [0]
  indexVectorDim := 1
  wf := scatter_S16x1_S50000x1_S50000x1_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

class Facts : Prop extends Facts₀ where

variable [Facts]
-- ==== Proof.KernelRun.lean ====
/-
  The idealized kernel's run, with EVERY buffer named at the end.

  The program is six segments: a stretch of host operations, the first GIN region, a second stretch, the second GIN
  region, a third stretch, the classifier region.  The buffer contents at each boundary form a fold from the launch
  memory: a stretch applies its operations to the contents it finds; a region leaves its arrays at what its blocks'
  write-backs make of them and every other buffer as it found it.  The last of these contents is called `W6`.

  Here the run is stated with the strongest reading of its last state: every weakly fair execution terminates, nothing
  faults, and every buffer that outlives the kernels holds `W6` of it.  The frame (the arguments end as launched) and the
  value of the result are both readings of this one statement.
-/
import proofs.«147787_j70952859730187_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, and in every
    final state each buffer that outlives the kernels holds the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run read at one TensorCore buffer that outlives the kernels. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W6 m ρ c (Proc.devRef .tc b)) :=
  (θ_run defs _ _).mono (fun r h c => h c _ (mem_uc b hb)) (run_all m ρ)

end Cert.KernelIdeal.Run

end
-- ==== Proof.HostChains.lean ====
/-
  The two irregular steps both programs leave to the host, each named once as a function.

  `aggregate x src dst` is the neighbours' sum of a GIN layer: the rows of `x` are gathered at the edge sources (an index
  below zero is first moved up by the number of nodes), and the gathered rows are added into a zero array at the edge
  destinations.  `pool x gid` is the mean of the node rows of each graph: the rows of `x` added into a zero array at the
  graph ids, divided by the number of nodes of the graph (ones added at the graph ids), that number taken at least 1.

  Both programs apply these same operations to the same kind of operands, so the proof never opens them: it only shows
  that the two programs feed them equal arrays.
-/
import proofs.«147787_j70952859730187_1_alg».proof.Proof.Gen.KernelIdeal

noncomputable section

namespace Cert.Gnn

open Cert.KernelIdeal Cert.KernelIdeal.Gen Idealize.ShloMosaic

variable {F : FTy → Type} [FloatOps F]

/-- The neighbours' sum: gather the rows of `x` at the edge sources, add them up at the edge destinations. -/
def aggregate (x : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select
          (cmpi .slt src (broadcastInDim S800000 ![] bcast_S_S800000 (constantI S_ 32 0#32)))
          (addi src (broadcastInDim S800000 ![] bcast_S_S800000 (constantI S_ 32 50000#32)))
          src)))

/-- The per-graph mean of the node rows: sums at the graph ids over counts at the graph ids, the counts at least 1. -/
def pool (x : (⟨S50000x128, .f32⟩ : BufTy).Contents (Elt F)) (gid : (⟨S50000, .i32⟩ : BufTy).Contents (Elt F)) :
    (⟨S16x128, .f32⟩ : BufTy).Contents (Elt F) :=
  Host.divf
    (Host.scatterAdd scatter_S16x128_S50000x1_S50000x128_1_0_0_1
      (broadcastInDim S16x128 ![] bcast_S_S16x128 (constant S_ .f32 0x00000000#32))
      (broadcastInDim S50000x1 ![0] bcast_S50000_S50000x1_0 gid) x)
    (broadcastInDim S16x128 ![0, 1] bcast_S16x1_S16x128_0_1
      (maximumf
        (Host.scatterAdd scatter_S16x1_S50000x1_S50000x1_1_0_0_1
          (broadcastInDim S16x1 ![] bcast_S_S16x1 (constant S_ .f32 0x00000000#32))
          (broadcastInDim S50000x1 ![0] bcast_S50000_S50000x1_0 gid)
          (broadcastInDim S50000x1 ![] bcast_S_S50000x1 (constant S_ .f32 0x3F800000#32)))
        (broadcastInDim S16x1 ![] bcast_S_S16x1 (constant S_ .f32 0x3F800000#32))))

end Cert.Gnn

end
-- ==== Proof.Stages.lean ====
/-
  The buffer contents at the three regions' entries, buffer by buffer.

  The contents at each boundary of the program are a fold from the launch memory: a stretch of host operations applies its
  operations to the contents it finds, and a region leaves its own arrays at what its write-backs make of them and every other
  buffer as it found it.  No host operation and no region writes an argument, so an argument read at any boundary is the
  launch memory's.  At each region's entry the buffers the region reads are: arguments; a bias vector `[n]` recast as a row
  `[1, n]` (entry `(0, k)` of the row is entry `k` of the vector); the neighbours' sum `aggregate` of the features and the
  edge lists, or the per-graph mean `pool` of the second layer's result and the graph ids; and the previous region's result
  array, which the stretch in between leaves alone.
-/
import proofs.«147787_j70952859730187_1_alg».proof.Proof.Gen.KernelIdeal.Frame
import proofs.«147787_j70952859730187_1_alg».proof.Proof.HostChains
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gnn.Stages

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-! ## Arguments read at the boundaries -/

/-- Argument 0 at the first region's entry is the launch memory's. -/
theorem W1_arg0 (c : Dev nD) : W1 m ρ c (Proc.devRef .tc main_arg0) = m ((c : Thread nD τ).loc main_arg0) := by
  show StableHlo.after hostOps0 (W0 m ρ c) (Proc.devRef .tc main_arg0) = _
  after_results
/-- Argument 1 at the first region's entry is the launch memory's. -/
theorem W1_arg1 (c : Dev nD) : W1 m ρ c (Proc.devRef .tc main_arg1) = m ((c : Thread nD τ).loc main_arg1) := by
  show StableHlo.after hostOps0 (W0 m ρ c) (Proc.devRef .tc main_arg1) = _
  after_results
/-- Argument 2 at the first region's entry is the launch memory's. -/
theorem W1_arg2 (c : Dev nD) : W1 m ρ c (Proc.devRef .tc main_arg2) = m ((c : Thread nD τ).loc main_arg2) := by
  show StableHlo.after hostOps0 (W0 m ρ c) (Proc.devRef .tc main_arg2) = _
  after_results
/-- Argument 4 at the first region's entry is the launch memory's. -/
theorem W1_arg4 (c : Dev nD) : W1 m ρ c (Proc.devRef .tc main_arg4) = m ((c : Thread nD τ).loc main_arg4) := by
  show StableHlo.after hostOps0 (W0 m ρ c) (Proc.devRef .tc main_arg4) = _
  after_results
/-- Argument 5 at the first region's entry is the launch memory's. -/
theorem W1_arg5 (c : Dev nD) : W1 m ρ c (Proc.devRef .tc main_arg5) = m ((c : Thread nD τ).loc main_arg5) := by
  show StableHlo.after hostOps0 (W0 m ρ c) (Proc.devRef .tc main_arg5) = _
  after_results
/-- Argument 6 at the first region's entry is the launch memory's. -/
theorem W1_arg6 (c : Dev nD) : W1 m ρ c (Proc.devRef .tc main_arg6) = m ((c : Thread nD τ).loc main_arg6) := by
  show StableHlo.after hostOps0 (W0 m ρ c) (Proc.devRef .tc main_arg6) = _
  after_results
/-- Argument 7 at the first region's entry is the launch memory's. -/
theorem W1_arg7 (c : Dev nD) : W1 m ρ c (Proc.devRef .tc main_arg7) = m ((c : Thread nD τ).loc main_arg7) := by
  show StableHlo.after hostOps0 (W0 m ρ c) (Proc.devRef .tc main_arg7) = _
  after_results
/-- Argument 1 after the first region is the launch memory's: the region does not touch it, nor does the stretch before. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
/-- Argument 2 after the first region is the launch memory's: the region does not touch it, nor does the stretch before. -/
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
/-- Argument 3 after the first region is the launch memory's: the region does not touch it, nor does the stretch before. -/
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
/-- Argument 8 after the first region is the launch memory's: the region does not touch it, nor does the stretch before. -/
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
/-- Argument 9 after the first region is the launch memory's: the region does not touch it, nor does the stretch before. -/
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
/-- Argument 10 after the first region is the launch memory's: the region does not touch it, nor does the stretch before. -/
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
/-- Argument 11 after the first region is the launch memory's: the region does not touch it, nor does the stretch before. -/
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)
/-- Argument 12 after the first region is the launch memory's: the region does not touch it, nor does the stretch before. -/
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)
/-- Argument 13 after the first region is the launch memory's: the region does not touch it, nor does the stretch before. -/
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)
/-- Argument 14 after the first region is the launch memory's: the region does not touch it, nor does the stretch before. -/
theorem W2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results)
/-- Argument 15 after the first region is the launch memory's: the region does not touch it, nor does the stretch before. -/
theorem W2_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results)
/-- Argument 3 at the second region's entry is the launch memory's. -/
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) from by
    show StableHlo.after hostOps1 (W2 m ρ c) (Proc.devRef .tc main_arg3) = _
    after_results).trans (W2_arg3 m ρ c)
/-- Argument 8 at the second region's entry is the launch memory's. -/
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) from by
    show StableHlo.after hostOps1 (W2 m ρ c) (Proc.devRef .tc main_arg8) = _
    after_results).trans (W2_arg8 m ρ c)
/-- Argument 10 at the second region's entry is the launch memory's. -/
theorem W3_arg10 (c : Dev nD) : W3 m ρ c (Proc.devRef .tc main_arg10) = m ((c : Thread nD τ).loc main_arg10) :=
  (show W3 m ρ c (Proc.devRef .tc main_arg10) = W2 m ρ c (Proc.devRef .tc main_arg10) from by
    show StableHlo.after hostOps1 (W2 m ρ c) (Proc.devRef .tc main_arg10) = _
    after_results).trans (W2_arg10 m ρ c)
/-- Argument 12 at the second region's entry is the launch memory's. -/
theorem W3_arg12 (c : Dev nD) : W3 m ρ c (Proc.devRef .tc main_arg12) = m ((c : Thread nD τ).loc main_arg12) :=
  (show W3 m ρ c (Proc.devRef .tc main_arg12) = W2 m ρ c (Proc.devRef .tc main_arg12) from by
    show StableHlo.after hostOps1 (W2 m ρ c) (Proc.devRef .tc main_arg12) = _
    after_results).trans (W2_arg12 m ρ c)
/-- Argument 13 at the second region's entry is the launch memory's. -/
theorem W3_arg13 (c : Dev nD) : W3 m ρ c (Proc.devRef .tc main_arg13) = m ((c : Thread nD τ).loc main_arg13) :=
  (show W3 m ρ c (Proc.devRef .tc main_arg13) = W2 m ρ c (Proc.devRef .tc main_arg13) from by
    show StableHlo.after hostOps1 (W2 m ρ c) (Proc.devRef .tc main_arg13) = _
    after_results).trans (W2_arg13 m ρ c)
/-- Argument 14 at the second region's entry is the launch memory's. -/
theorem W3_arg14 (c : Dev nD) : W3 m ρ c (Proc.devRef .tc main_arg14) = m ((c : Thread nD τ).loc main_arg14) :=
  (show W3 m ρ c (Proc.devRef .tc main_arg14) = W2 m ρ c (Proc.devRef .tc main_arg14) from by
    show StableHlo.after hostOps1 (W2 m ρ c) (Proc.devRef .tc main_arg14) = _
    after_results).trans (W2_arg14 m ρ c)
/-- Argument 15 at the second region's entry is the launch memory's. -/
theorem W3_arg15 (c : Dev nD) : W3 m ρ c (Proc.devRef .tc main_arg15) = m ((c : Thread nD τ).loc main_arg15) :=
  (show W3 m ρ c (Proc.devRef .tc main_arg15) = W2 m ρ c (Proc.devRef .tc main_arg15) from by
    show StableHlo.after hostOps1 (W2 m ρ c) (Proc.devRef .tc main_arg15) = _
    after_results).trans (W2_arg15 m ρ c)
/-- Argument 3 after the second region is the launch memory's. -/
theorem W4_arg3 (c : Dev nD) : W4 m ρ c (Proc.devRef .tc main_arg3) = m ((c : Thread nD τ).loc main_arg3) :=
  (W4_of_ne m ρ c main_arg3 (by decide)).trans (W3_arg3 m ρ c)
/-- Argument 12 after the second region is the launch memory's. -/
theorem W4_arg12 (c : Dev nD) : W4 m ρ c (Proc.devRef .tc main_arg12) = m ((c : Thread nD τ).loc main_arg12) :=
  (W4_of_ne m ρ c main_arg12 (by decide)).trans (W3_arg12 m ρ c)
/-- Argument 13 after the second region is the launch memory's. -/
theorem W4_arg13 (c : Dev nD) : W4 m ρ c (Proc.devRef .tc main_arg13) = m ((c : Thread nD τ).loc main_arg13) :=
  (W4_of_ne m ρ c main_arg13 (by decide)).trans (W3_arg13 m ρ c)
/-- Argument 14 after the second region is the launch memory's. -/
theorem W4_arg14 (c : Dev nD) : W4 m ρ c (Proc.devRef .tc main_arg14) = m ((c : Thread nD τ).loc main_arg14) :=
  (W4_of_ne m ρ c main_arg14 (by decide)).trans (W3_arg14 m ρ c)
/-- Argument 15 after the second region is the launch memory's. -/
theorem W4_arg15 (c : Dev nD) : W4 m ρ c (Proc.devRef .tc main_arg15) = m ((c : Thread nD τ).loc main_arg15) :=
  (W4_of_ne m ρ c main_arg15 (by decide)).trans (W3_arg15 m ρ c)
/-- Argument 12 at the third region's entry is the launch memory's. -/
theorem W5_arg12 (c : Dev nD) : W5 m ρ c (Proc.devRef .tc main_arg12) = m ((c : Thread nD τ).loc main_arg12) :=
  (show W5 m ρ c (Proc.devRef .tc main_arg12) = W4 m ρ c (Proc.devRef .tc main_arg12) from by
    show StableHlo.after hostOps2 (W4 m ρ c) (Proc.devRef .tc main_arg12) = _
    after_results).trans (W4_arg12 m ρ c)
/-- Argument 14 at the third region's entry is the launch memory's. -/
theorem W5_arg14 (c : Dev nD) : W5 m ρ c (Proc.devRef .tc main_arg14) = m ((c : Thread nD τ).loc main_arg14) :=
  (show W5 m ρ c (Proc.devRef .tc main_arg14) = W4 m ρ c (Proc.devRef .tc main_arg14) from by
    show StableHlo.after hostOps2 (W4 m ρ c) (Proc.devRef .tc main_arg14) = _
    after_results).trans (W4_arg14 m ρ c)

/-! ## The first region's entry -/

theorem V1_arg0 (c : Dev nD) : V1 m ρ c main_arg0 = m ((c : Thread nD τ).loc main_arg0) := W1_arg0 m ρ c
theorem V1_arg4 (c : Dev nD) : V1 m ρ c main_arg4 = m ((c : Thread nD τ).loc main_arg4) := W1_arg4 m ρ c
theorem V1_arg6 (c : Dev nD) : V1 m ρ c main_arg6 = m ((c : Thread nD τ).loc main_arg6) := W1_arg6 m ρ c

/-- The neighbours' sums the first region reads: `aggregate` of the input features and the edge lists. -/
theorem V1_v9 (c : Dev nD) : V1 m ρ c main_v9 = Cert.Gnn.aggregate (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

/-- The first bias, recast as a row: entry `(0, k)` of the row is entry `k` of the vector. -/
theorem V1_v10 (c : Dev nD) (z : Fin 1) (k : Fin 128) : (V1 m ρ c main_v10 : S1x128.Idx → Elt F .f32) (ix2 z k)
    = (m ((c : Thread nD τ).loc main_arg5) : S128.Idx → Elt F .f32) (ix1 k) := by
  show StableHlo.after hostOps0 (W0 m ρ c) (Proc.devRef .tc main_v10) (ix2 z k) = _
  after_results
  exact shapeCast_a_1a_apply (m ((c : Thread nD τ).loc main_arg5) : S128.Idx → Elt F .f32) shapeCasts_S128_S1x128 z k

/-- The second bias, recast as a row. -/
theorem V1_v11 (c : Dev nD) (z : Fin 1) (k : Fin 128) : (V1 m ρ c main_v11 : S1x128.Idx → Elt F .f32) (ix2 z k)
    = (m ((c : Thread nD τ).loc main_arg7) : S128.Idx → Elt F .f32) (ix1 k) := by
  show StableHlo.after hostOps0 (W0 m ρ c) (Proc.devRef .tc main_v11) (ix2 z k) = _
  after_results
  exact shapeCast_a_1a_apply (m ((c : Thread nD τ).loc main_arg7) : S128.Idx → Elt F .f32) shapeCasts_S128_S1x128 z k

/-! ## The second region's entry -/

/-- The stretch before the second region leaves the first region's result alone. -/
theorem V3_v12 (c : Dev nD) : V3 m ρ c main_v12 = W2 m ρ c (Proc.devRef .tc main_v12) := by
  show StableHlo.after hostOps1 (W2 m ρ c) (Proc.devRef .tc main_v12) = _
  after_results

/-- The neighbours' sums the second region reads: `aggregate` of the first region's result and the edge lists. -/
theorem V3_v22 (c : Dev nD) : V3 m ρ c main_v22
    = Cert.Gnn.aggregate (W2 m ρ c (Proc.devRef .tc main_v12)) (m ((c : Thread nD τ).loc main_arg1)) (m ((c : Thread nD τ).loc main_arg2)) := by
  rw [← W2_arg1 m ρ c, ← W2_arg2 m ρ c]
  show StableHlo.after hostOps1 (W2 m ρ c) (Proc.devRef .tc main_v22) = _
  after_results
  rfl

theorem V3_arg8 (c : Dev nD) : V3 m ρ c main_arg8 = m ((c : Thread nD τ).loc main_arg8) := W3_arg8 m ρ c
theorem V3_arg10 (c : Dev nD) : V3 m ρ c main_arg10 = m ((c : Thread nD τ).loc main_arg10) := W3_arg10 m ρ c

/-- The third bias, recast as a row. -/
theorem V3_v23 (c : Dev nD) (z : Fin 1) (k : Fin 128) : (V3 m ρ c main_v23 : S1x128.Idx → Elt F .f32) (ix2 z k)
    = (m ((c : Thread nD τ).loc main_arg9) : S128.Idx → Elt F .f32) (ix1 k) := by
  rw [← W2_arg9 m ρ c]
  show StableHlo.after hostOps1 (W2 m ρ c) (Proc.devRef .tc main_v23) (ix2 z k) = _
  after_results
  exact shapeCast_a_1a_apply (W2 m ρ c (Proc.devRef .tc main_arg9) : S128.Idx → Elt F .f32) shapeCasts_S128_S1x128 z k

/-- The fourth bias, recast as a row. -/
theorem V3_v24 (c : Dev nD) (z : Fin 1) (k : Fin 128) : (V3 m ρ c main_v24 : S1x128.Idx → Elt F .f32) (ix2 z k)
    = (m ((c : Thread nD τ).loc main_arg11) : S128.Idx → Elt F .f32) (ix1 k) := by
  rw [← W2_arg11 m ρ c]
  show StableHlo.after hostOps1 (W2 m ρ c) (Proc.devRef .tc main_v24) (ix2 z k) = _
  after_results
  exact shapeCast_a_1a_apply (W2 m ρ c (Proc.devRef .tc main_arg11) : S128.Idx → Elt F .f32) shapeCasts_S128_S1x128 z k

/-! ## The third region's entry -/

/-- The pooled rows the classifier reads: `pool` of the second region's result and the graph ids. -/
theorem V5_v36 (c : Dev nD) : V5 m ρ c main_v36
    = Cert.Gnn.pool (W4 m ρ c (Proc.devRef .tc main_v25)) (m ((c : Thread nD τ).loc main_arg3)) := by
  rw [← W4_arg3 m ρ c]
  show StableHlo.after hostOps2 (W4 m ρ c) (Proc.devRef .tc main_v36) = _
  after_results
  rfl

theorem V5_arg12 (c : Dev nD) : V5 m ρ c main_arg12 = m ((c : Thread nD τ).loc main_arg12) := W5_arg12 m ρ c
theorem V5_arg14 (c : Dev nD) : V5 m ρ c main_arg14 = m ((c : Thread nD τ).loc main_arg14) := W5_arg14 m ρ c

/-- The classifier's first bias, recast as a row. -/
theorem V5_v37 (c : Dev nD) (z : Fin 1) (k : Fin 128) : (V5 m ρ c main_v37 : S1x128.Idx → Elt F .f32) (ix2 z k)
    = (m ((c : Thread nD τ).loc main_arg13) : S128.Idx → Elt F .f32) (ix1 k) := by
  rw [← W4_arg13 m ρ c]
  show StableHlo.after hostOps2 (W4 m ρ c) (Proc.devRef .tc main_v37) (ix2 z k) = _
  after_results
  exact shapeCast_a_1a_apply (W4 m ρ c (Proc.devRef .tc main_arg13) : S128.Idx → Elt F .f32) shapeCasts_S128_S1x128 z k

/-- The classifier's second bias, recast as a row. -/
theorem V5_v38 (c : Dev nD) (z : Fin 1) (k : Fin 10) : (V5 m ρ c main_v38 : S1x10.Idx → Elt F .f32) (ix2 z k)
    = (m ((c : Thread nD τ).loc main_arg15) : S10.Idx → Elt F .f32) (ix1 k) := by
  rw [← W4_arg15 m ρ c]
  show StableHlo.after hostOps2 (W4 m ρ c) (Proc.devRef .tc main_v38) (ix2 z k) = _
  after_results
  exact shapeCast_a_1a_apply (W4 m ρ c (Proc.devRef .tc main_arg15) : S10.Idx → Elt F .f32) shapeCasts_S10_S1x10 z k

end Cert.Gnn.Stages

end
-- ==== Proof.Blocks0.lean ====
/-
  GIN region 0: how the node axis is cut into blocks.

  The region runs over ten grid points.  At point `t` the two node-feature operands and the result are staged as the
  block of rows `5000 t … 5000 t + 4999` (all 128 columns); the two weight matrices and the two bias rows are staged
  whole at every point.  So an element `(p, l)` of a feature block is the element `(5000 t + p, l)` of its array, an
  element of a weight or bias block is the same element of its array, and since `10 · 5000 = 50000` the ten result blocks
  cover the result array: row `r` lies in the block of point `r / 5000`.
-/
import proofs.«147787_j70952859730187_1_alg».proof.Proof.Gen.KernelIdeal.Frame
import Idealize.ShloMosaic.Lib.Pipeline.Value
import Idealize.ShloMosaic.Lib.ValueIdx

set_option maxRecDepth 16384

noncomputable section

namespace Cert.Gnn.Blocks0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The printed index maps, decided over the ten grid points: the three row-blocked windows sit at block `(t, 0)`, the four
    whole windows at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A grid point is below ten. -/
theorem point_lt (t : Fin cfg0.N) : t.val < 10 :=
  Nat.lt_of_lt_of_eq t.isLt (show cfg0.N = 10 from N_0)

/-- Row `p` of the block at point `t`, as a row of the array. -/
def rowOf (t : Fin cfg0.N) (p : Fin 5000) : Fin 50000 :=
  ⟨5000 * t.val + p.val, by have := point_lt t; have := p.isLt; omega⟩

/-- An element of a row block of the first feature operand is the array's element in row `5000 t + p`. -/
theorem rows_0 (c : Dev nD) (t : Fin cfg0.N) (p : Fin 5000) (l : Fin 128) :
    (iblk0 V c 0 t : Vec F S5000x128 .f32) (ix2 p l) = (V c main_arg0 : S50000x128.Idx → Elt F .f32) (ix2 (rowOf t p) l) := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * l.val = l.val; rw [e1]; omega

/-- The same for the second feature operand (the neighbours' sums). -/
theorem rows_1 (c : Dev nD) (t : Fin cfg0.N) (p : Fin 5000) (l : Fin 128) :
    (iblk0 V c 1 t : Vec F S5000x128 .f32) (ix2 p l) = (V c main_v9 : S50000x128.Idx → Elt F .f32) (ix2 (rowOf t p) l) := by
  obtain ⟨-, -, e0, e1, -⟩ := index_facts t
  unfold iblk0
  rw [View.read_apply]
  show V c main_v9 _ = V c main_v9 _
  congr 1
  funext a
  apply Fin.ext
  match a with
  | ⟨0, _⟩ => show win0_1.index t 0 * 5000 + 1 * p.val = 5000 * t.val + p.val; rw [e0]; omega
  | ⟨1, _⟩ => show win0_1.index t 1 * 128 + 1 * l.val = l.val; rw [e1]; omega

/-- The first weight matrix is staged whole. -/
theorem whole_2 (c : Dev nD) (t : Fin cfg0.N) (k : Fin 128) (j : Fin 128) :
    (iblk0 V c 2 t : Vec F S128x128 .f32) (ix2 k j) = (V c main_arg4 : S128x128.Idx → Elt F .f32) (ix2 k j) := by
  obtain ⟨-, -, -, -, -, -, e0, e1, -⟩ := index_facts t
  unfold iblk0
  rw [View.read_apply]
  show V c main_arg4 _ = V c main_arg4 _
  congr 1
  funext a
  apply Fin.ext
  match a with
  | ⟨0, _⟩ => show win0_2.index t 0 * 128 + 1 * k.val = k.val; rw [e0]; omega
  | ⟨1, _⟩ => show win0_2.index t 1 * 128 + 1 * j.val = j.val; rw [e1]; omega

/-- The first bias row is staged whole. -/
theorem whole_3 (c : Dev nD) (t : Fin cfg0.N) (z : Fin 1) (j : Fin 128) :
    (iblk0 V c 3 t : Vec F S1x128 .f32) (ix2 z j) = (V c main_v10 : S1x128.Idx → Elt F .f32) (ix2 z j) := by
  obtain ⟨-, -, -, -, -, -, -, -, e0, e1, -⟩ := index_facts t
  unfold iblk0
  rw [View.read_apply]
  show V c main_v10 _ = V c main_v10 _
  congr 1
  funext a
  apply Fin.ext
  match a with
  | ⟨0, _⟩ => show win0_3.index t 0 * 1 + 1 * z.val = z.val; rw [e0]; omega
  | ⟨1, _⟩ => show win0_3.index t 1 * 128 + 1 * j.val = j.val; rw [e1]; omega

/-- The second weight matrix is staged whole. -/
theorem whole_4 (c : Dev nD) (t : Fin cfg0.N) (k : Fin 128) (j : Fin 128) :
    (iblk0 V c 4 t : Vec F S128x128 .f32) (ix2 k j) = (V c main_arg6 : S128x128.Idx → Elt F .f32) (ix2 k j) := by
  obtain ⟨-, -, -, -, -, -, -, -, -, -, e0, e1, -⟩ := index_facts t
  unfold iblk0
  rw [View.read_apply]
  show V c main_arg6 _ = V c main_arg6 _
  congr 1
  funext a
  apply Fin.ext
  match a with
  | ⟨0, _⟩ => show win0_4.index t 0 * 128 + 1 * k.val = k.val; rw [e0]; omega
  | ⟨1, _⟩ => show win0_4.index t 1 * 128 + 1 * j.val = j.val; rw [e1]; omega

/-- The second bias row is staged whole. -/
theorem whole_5 (c : Dev nD) (t : Fin cfg0.N) (z : Fin 1) (j : Fin 128) :
    (iblk0 V c 5 t : Vec F S1x128 .f32) (ix2 z j) = (V c main_v11 : S1x128.Idx → Elt F .f32) (ix2 z j) := by
  obtain ⟨-, -, -, -, -, -, -, -, -, -, -, -, e0, e1⟩ := index_facts t
  unfold iblk0
  rw [View.read_apply]
  show V c main_v11 _ = V c main_v11 _
  congr 1
  funext a
  apply Fin.ext
  match a with
  | ⟨0, _⟩ => show win0_5.index t 0 * 1 + 1 * z.val = z.val; rw [e0]; omega
  | ⟨1, _⟩ => show win0_5.index t 1 * 128 + 1 * j.val = j.val; rw [e1]; omega

/-- An element of the result block at point `t` sits in the result array in row `5000 t + p`. -/
theorem out_emb (t : Fin cfg0.N) (p : Fin 5000) (q : Fin 128) :
    (((cfg0.win 6).blk t).view.emb (ix2 p q) : S50000x128.Idx) = ix2 (rowOf t p) q := by
  obtain ⟨-, -, -, -, e0, e1, -⟩ := index_facts t
  funext a
  apply Fin.ext
  match a with
  | ⟨0, _⟩ => show win0_6.index t 0 * 5000 + 1 * p.val = 5000 * t.val + p.val; rw [e0]; omega
  | ⟨1, _⟩ => show win0_6.index t 1 * 128 + 1 * q.val = q.val; rw [e1]; omega

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v12).slice (win0_6.rect t)).set ↔ _
  rw [View.set_slice_whole, Rect.mem_set_unit]
  exact Iff.rfl

/-- The ten result blocks cover the result array: row `r` is in the block of point `r / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, e0, e1, -⟩ := index_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

end Cert.Gnn.Blocks0

end
-- ==== Proof.Spec.lean ====
/-
  The mathematics both programs compute, one ROW at a time, on the extended reals.

  A dense layer sends a row `x` of 128 entries to the row whose entry `j` is the sum over `k` of `x k * W k j`,
  plus the bias `b j`.  A GIN layer's apply function first adds to a node's row `x` the sum `a` of its neighbours' rows,
  then runs two dense layers, each followed by the maximum with the float word 0.0.  The classifier runs a dense layer, the
  maximum with 0.0, and a second dense layer into 10 classes.

  Every entry of a result row depends on ONE row of the node features and on the whole weight matrices; this is why the node
  axis can be cut into blocks of rows, and why a product computed block by block is the product computed at once.  No law of
  the extended reals beyond "the same sum" is used, so nothing here asks an entry to be finite.
-/
import Idealize.ShloMosaic.PureOps.Ideal
import Idealize.ShloMosaic.Lib.ValueIdx

noncomputable section

open scoped BigOperators

namespace Cert.Gnn

open Idealize.ShloMosaic

/-- The float word 0.0 as an extended real.  Both programs carry this same word, so it is never evaluated. -/
abbrev zeroW : EReal := Ideal.ofBits .f32 0x00000000#32

/-- One row of a dense layer: entry `j` is the row `x` against column `j` of `W`, plus the bias at `j`. -/
def denseRow {n : ℕ} (x : Fin 128 → EReal) (W : Fin 128 → Fin n → EReal) (b : Fin n → EReal) (j : Fin n) : EReal :=
  (∑ k : Fin 128, x k * W k j) + b j

/-- One row of a GIN layer's apply function: the node's row plus its neighbours' sum, through two dense layers, each
    followed by the maximum with 0.0. -/
def ginRow (x a : Fin 128 → EReal) (W1 : Fin 128 → Fin 128 → EReal) (b1 : Fin 128 → EReal)
    (W2 : Fin 128 → Fin 128 → EReal) (b2 : Fin 128 → EReal) (j : Fin 128) : EReal :=
  max (denseRow (fun k => max (denseRow (fun l => x l + a l) W1 b1 k) zeroW) W2 b2 j) zeroW

/-- One row of the classifier: a dense layer, the maximum with 0.0, and a dense layer into the 10 classes. -/
def clsRow (x : Fin 128 → EReal) (W1 : Fin 128 → Fin 128 → EReal) (b1 : Fin 128 → EReal)
    (W2 : Fin 128 → Fin 10 → EReal) (b2 : Fin 10 → EReal) (j : Fin 10) : EReal :=
  denseRow (fun k => max (denseRow x W1 b1 k) zeroW) W2 b2 j

end Cert.Gnn

end
-- ==== Proof.KernelRows.lean ====
/-
  What each of the three kernel bodies stores, read at one entry.

  Each body loads its whole blocks, computes one value of the output block's shape, and stores it over the whole output
  block; so the stored block IS that value of the loaded blocks.  Read at the entry `(p, q)`, a pointwise operation reads
  its operands at `(p, q)`, a `[1, n]` row broadcast over the rows reads the row at `q`, and a matrix product into the zero
  accumulator is the sum over `k` of the left operand at `(p, k)` times the right operand at `(k, q)`.  Put together, entry
  `(p, q)` of a stored block is entry `q` of the layer's row function applied to row `p` of the node block and to the whole
  weight matrices and bias rows: `Cert.Gnn.ginRow` for the two GIN bodies, `Cert.Gnn.clsRow` for the classifier body.
  The float word 0.0 that the maxima compare against is the same word on both sides and is left as it is.
-/
import proofs.«147787_j70952859730187_1_alg».proof.Proof.Gen.KernelIdeal.Frame
import proofs.«147787_j70952859730187_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gnn.KernelRows

open Cert.KernelIdeal Cert.KernelIdeal.Gen Idealize.ShloMosaic Idealize.ShloMosaic.ValueIdx

/-- The zero offsets of a whole-block access, however they are spelt. -/
theorem zero_offsets : (![0, 0] : Fin 2 → Nat) = fun _ => 0 := funext fun a => by fin_cases a <;> rfl

/-! ## A matrix product into the zero accumulator, read at an entry -/

/-- A product of a 16 by 128 block with a 128 by 128 matrix into the zero accumulator: entry `(p, q)` is the sum over `k` of `l (p, k) * r (k, q)`. -/
theorem matmul_rows_16_128 (l : FVec Ideal S16x128 .f32) (r : FVec Ideal S128x128 .f32) (p : Fin 16) (q : Fin 128) :
    matmul (F := Ideal) dot_S16x128_S128x128_S16x128_1_0_0_1_n_n none l r (constant S16x128 .f32 0x00000000#32) (ix2 p q)
      = ∑ k : Fin 128, l (ix2 p k) * r (ix2 k q) := by
  -- the left operand's index keeps the output's row and takes the contraction coordinate as its column
  have l0 : ∀ (i : S16x128.Idx) (c : dot_S16x128_S128x128_S16x128_1_0_0_1_n_n.contr.Idx), (dot_S16x128_S128x128_S16x128_1_0_0_1_n_n.lhsIdx i c 0).val = (i 0).val := by
    intro i c
    unfold DotDims.lhsIdx
    rw [dif_neg (show ¬(0 : Fin S16x128.rank) ∈ dot_S16x128_S128x128_S16x128_1_0_0_1_n_n.lhsBatch by decide),
      dif_pos (show (0 : Fin S16x128.rank) ∈ dot_S16x128_S128x128_S16x128_1_0_0_1_n_n.lhsNonContracting by decide)]
    rfl
  have l1 : ∀ (i : S16x128.Idx) (c : dot_S16x128_S128x128_S16x128_1_0_0_1_n_n.contr.Idx), (dot_S16x128_S128x128_S16x128_1_0_0_1_n_n.lhsIdx i c 1).val = (c ⟨0, by decide⟩).val :=
    fun i c => dot_S16x128_S128x128_S16x128_1_0_0_1_n_n.lhsIdx_val_of_single rfl i c
  -- the right operand's index takes the contraction coordinate as its row and keeps the output's column
  have r0 : ∀ (i : S16x128.Idx) (c : dot_S16x128_S128x128_S16x128_1_0_0_1_n_n.contr.Idx), (dot_S16x128_S128x128_S16x128_1_0_0_1_n_n.rhsIdx i c 0).val = (c ⟨0, by decide⟩).val :=
    fun i c => dot_S16x128_S128x128_S16x128_1_0_0_1_n_n.rhsIdx_val_of_single rfl i c
  have r1 : ∀ (i : S16x128.Idx) (c : dot_S16x128_S128x128_S16x128_1_0_0_1_n_n.contr.Idx), (dot_S16x128_S128x128_S16x128_1_0_0_1_n_n.rhsIdx i c 1).val = (i 1).val := by
    intro i c
    unfold DotDims.rhsIdx
    rw [dif_neg (show ¬(1 : Fin S128x128.rank) ∈ dot_S16x128_S128x128_S16x128_1_0_0_1_n_n.rhsBatch by decide),
      dif_pos (show (1 : Fin S128x128.rank) ∈ dot_S16x128_S128x128_S16x128_1_0_0_1_n_n.rhsNonContracting by decide)]
    rfl
  simp only [matmul]
  rw [Ideal.matmul_constant_zero_apply, ← Equiv.sum_comp (contrEquiv1 dot_S16x128_S128x128_S16x128_1_0_0_1_n_n 128 rfl rfl).symm]
  refine Finset.sum_congr rfl fun k _ => ?_
  have hk := contrEquiv1_symm_val dot_S16x128_S128x128_S16x128_1_0_0_1_n_n 128 rfl rfl k
  have el : dot_S16x128_S128x128_S16x128_1_0_0_1_n_n.lhsIdx (ix2 p q) ((contrEquiv1 dot_S16x128_S128x128_S16x128_1_0_0_1_n_n 128 rfl rfl).symm k) = ix2 p k :=
    funext fun a => Fin.ext (by
      match a with
      | ⟨0, _⟩ => exact l0 _ _
      | ⟨1, _⟩ => exact (l1 _ _).trans hk)
  have er : dot_S16x128_S128x128_S16x128_1_0_0_1_n_n.rhsIdx (ix2 p q) ((contrEquiv1 dot_S16x128_S128x128_S16x128_1_0_0_1_n_n 128 rfl rfl).symm k) = ix2 k q :=
    funext fun a => Fin.ext (by
      match a with
      | ⟨0, _⟩ => exact (r0 _ _).trans hk
      | ⟨1, _⟩ => exact r1 _ _)
  rw [el, er]

/-- The same for a 128 by 10 matrix: entry `(p, q)` of the 16 by 10 product is the sum over `k` of `l (p, k) * r (k, q)`. -/
theorem matmul_rows_16_10 (l : FVec Ideal S16x128 .f32) (r : FVec Ideal S128x10 .f32) (p : Fin 16) (q : Fin 10) :
    matmul (F := Ideal) dot_S16x128_S128x10_S16x10_1_0_0_1_n_n none l r (constant S16x10 .f32 0x00000000#32) (ix2 p q)
      = ∑ k : Fin 128, l (ix2 p k) * r (ix2 k q) := by
  -- the left operand's index keeps the output's row and takes the contraction coordinate as its column
  have l0 : ∀ (i : S16x10.Idx) (c : dot_S16x128_S128x10_S16x10_1_0_0_1_n_n.contr.Idx), (dot_S16x128_S128x10_S16x10_1_0_0_1_n_n.lhsIdx i c 0).val = (i 0).val := by
    intro i c
    unfold DotDims.lhsIdx
    rw [dif_neg (show ¬(0 : Fin S16x128.rank) ∈ dot_S16x128_S128x10_S16x10_1_0_0_1_n_n.lhsBatch by decide),
      dif_pos (show (0 : Fin S16x128.rank) ∈ dot_S16x128_S128x10_S16x10_1_0_0_1_n_n.lhsNonContracting by decide)]
    rfl
  have l1 : ∀ (i : S16x10.Idx) (c : dot_S16x128_S128x10_S16x10_1_0_0_1_n_n.contr.Idx), (dot_S16x128_S128x10_S16x10_1_0_0_1_n_n.lhsIdx i c 1).val = (c ⟨0, by decide⟩).val :=
    fun i c => dot_S16x128_S128x10_S16x10_1_0_0_1_n_n.lhsIdx_val_of_single rfl i c
  -- the right operand's index takes the contraction coordinate as its row and keeps the output's column
  have r0 : ∀ (i : S16x10.Idx) (c : dot_S16x128_S128x10_S16x10_1_0_0_1_n_n.contr.Idx), (dot_S16x128_S128x10_S16x10_1_0_0_1_n_n.rhsIdx i c 0).val = (c ⟨0, by decide⟩).val :=
    fun i c => dot_S16x128_S128x10_S16x10_1_0_0_1_n_n.rhsIdx_val_of_single rfl i c
  have r1 : ∀ (i : S16x10.Idx) (c : dot_S16x128_S128x10_S16x10_1_0_0_1_n_n.contr.Idx), (dot_S16x128_S128x10_S16x10_1_0_0_1_n_n.rhsIdx i c 1).val = (i 1).val := by
    intro i c
    unfold DotDims.rhsIdx
    rw [dif_neg (show ¬(1 : Fin S128x10.rank) ∈ dot_S16x128_S128x10_S16x10_1_0_0_1_n_n.rhsBatch by decide),
      dif_pos (show (1 : Fin S128x10.rank) ∈ dot_S16x128_S128x10_S16x10_1_0_0_1_n_n.rhsNonContracting by decide)]
    rfl
  simp only [matmul]
  rw [Ideal.matmul_constant_zero_apply, ← Equiv.sum_comp (contrEquiv1 dot_S16x128_S128x10_S16x10_1_0_0_1_n_n 128 rfl rfl).symm]
  refine Finset.sum_congr rfl fun k _ => ?_
  have hk := contrEquiv1_symm_val dot_S16x128_S128x10_S16x10_1_0_0_1_n_n 128 rfl rfl k
  have el : dot_S16x128_S128x10_S16x10_1_0_0_1_n_n.lhsIdx (ix2 p q) ((contrEquiv1 dot_S16x128_S128x10_S16x10_1_0_0_1_n_n 128 rfl rfl).symm k) = ix2 p k :=
    funext fun a => Fin.ext (by
      match a with
      | ⟨0, _⟩ => exact l0 _ _
      | ⟨1, _⟩ => exact (l1 _ _).trans hk)
  have er : dot_S16x128_S128x10_S16x10_1_0_0_1_n_n.rhsIdx (ix2 p q) ((contrEquiv1 dot_S16x128_S128x10_S16x10_1_0_0_1_n_n 128 rfl rfl).symm k) = ix2 k q :=
    funext fun a => Fin.ext (by
      match a with
      | ⟨0, _⟩ => exact (r0 _ _).trans hk
      | ⟨1, _⟩ => exact r1 _ _)
  rw [el, er]

/-- The same for a block of 5000 rows: entry `(p, q)` is the sum over `k` of `l (p, k) * r (k, q)`. -/
theorem matmul_rows_5000_128 (l : FVec Ideal S5000x128 .f32) (r : FVec Ideal S128x128 .f32) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  -- the left operand's index keeps the output's row and takes the contraction coordinate as its column
  have l0 : ∀ (i : S5000x128.Idx) (c : dot_S5000x128_S128x128_S5000x128_1_0_0_1_n_n.contr.Idx), (dot_S5000x128_S128x128_S5000x128_1_0_0_1_n_n.lhsIdx i c 0).val = (i 0).val := by
    intro i c
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  have l1 : ∀ (i : S5000x128.Idx) (c : dot_S5000x128_S128x128_S5000x128_1_0_0_1_n_n.contr.Idx), (dot_S5000x128_S128x128_S5000x128_1_0_0_1_n_n.lhsIdx i c 1).val = (c ⟨0, by decide⟩).val :=
    fun i c => dot_S5000x128_S128x128_S5000x128_1_0_0_1_n_n.lhsIdx_val_of_single rfl i c
  -- the right operand's index takes the contraction coordinate as its row and keeps the output's column
  have r0 : ∀ (i : S5000x128.Idx) (c : dot_S5000x128_S128x128_S5000x128_1_0_0_1_n_n.contr.Idx), (dot_S5000x128_S128x128_S5000x128_1_0_0_1_n_n.rhsIdx i c 0).val = (c ⟨0, by decide⟩).val :=
    fun i c => dot_S5000x128_S128x128_S5000x128_1_0_0_1_n_n.rhsIdx_val_of_single rfl i c
  have r1 : ∀ (i : S5000x128.Idx) (c : dot_S5000x128_S128x128_S5000x128_1_0_0_1_n_n.contr.Idx), (dot_S5000x128_S128x128_S5000x128_1_0_0_1_n_n.rhsIdx i c 1).val = (i 1).val := by
    intro i c
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact l0 _ _
      | ⟨1, _⟩ => exact (l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (r0 _ _).trans hk
      | ⟨1, _⟩ => exact r1 _ _)
  rw [el, er]

/-! ## The three stored blocks, read at an entry -/

/-- THE CLASSIFIER BODY: entry `(p, q)` of the block it stores is entry `q` of the classifier's row function at row `p` of
    the pooled block. -/
theorem cls_row (x0 : Vec Ideal S16x128 .f32) (x1 : Vec Ideal S128x128 .f32) (x2 : Vec Ideal S1x128 .f32)
    (x3 : Vec Ideal S128x10 .f32) (x4 : Vec Ideal S1x10 .f32) (p : Fin 16) (q : Fin 10) :
    Gen.out2_5 (F := Ideal) x0 x1 x2 x3 x4 (ix2 p q)
      = Cert.Gnn.clsRow (fun l => x0 (ix2 p l)) (fun l k => x1 (ix2 l k)) (fun k => x2 (ix2 (0 : Fin 1) k))
          (fun k j => x3 (ix2 k j)) (fun j => x4 (ix2 (0 : Fin 1) j)) q := by
  -- one whole-block store over whole-block loads: the stored block is the payload of the blocks themselves
  unfold Gen.out2_5
  rw [View.canon_unit_zero zero_offsets]
  simp only [View.ld_unit_zero (S := S16x128) zero_offsets, View.ld_unit_zero (S := S128x128) zero_offsets,
    View.ld_unit_zero (S := S1x128) zero_offsets, View.ld_unit_zero (S := S128x10) zero_offsets,
    View.ld_unit_zero (S := S1x10) zero_offsets]
  unfold Gen.k2_pay1
  simp only [shapeCast_self]
  -- the second dense layer, at `(p, q)`
  rw [addf_apply, matmul_rows_16_10, broadcastTo_1b_ab_apply]
  unfold Cert.Gnn.clsRow Cert.Gnn.denseRow
  refine congrArg (· + x4 (ix2 (0 : Fin 1) q)) (Finset.sum_congr rfl fun k _ => ?_)
  refine congrArg (· * x3 (ix2 k q)) ?_
  -- the first dense layer and its maximum with 0.0, at `(p, k)`
  rw [maximumf_apply, addf_apply, matmul_rows_16_128, broadcastTo_1b_ab_apply]
  rfl

/-- THE FIRST GIN BODY: entry `(p, q)` of the block it stores is entry `q` of the GIN layer's row function at row `p` of the
    node block `x0` and of the neighbours' sums `x1`. -/
theorem gin0_row (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    Gen.out0_6 (F := Ideal) x0 x1 x2 x3 x4 x5 (ix2 p q)
      = Cert.Gnn.ginRow (fun l => x0 (ix2 p l)) (fun l => x1 (ix2 p l)) (fun l k => x2 (ix2 l k))
          (fun k => x3 (ix2 (0 : Fin 1) k)) (fun k j => x4 (ix2 k j)) (fun j => x5 (ix2 (0 : Fin 1) j)) q := by
  -- one whole-block store over whole-block loads: the stored block is the payload of the blocks themselves
  unfold Gen.out0_6
  rw [View.canon_unit_zero zero_offsets]
  simp only [View.ld_unit_zero (S := S5000x128) zero_offsets, View.ld_unit_zero (S := S128x128) zero_offsets,
    View.ld_unit_zero (S := S1x128) zero_offsets]
  unfold Gen.k0_pay1
  simp only [shapeCast_self]
  -- the second dense layer and its maximum with 0.0, at `(p, q)`
  rw [maximumf_apply, addf_apply, matmul_rows_5000_128, broadcastTo_1b_ab_apply]
  unfold Cert.Gnn.ginRow Cert.Gnn.denseRow
  refine congrArg₂ max ?_ rfl
  refine congrArg (· + x5 (ix2 (0 : Fin 1) q)) (Finset.sum_congr rfl fun k _ => ?_)
  refine congrArg (· * x4 (ix2 k q)) ?_
  -- the first dense layer and its maximum with 0.0, at `(p, k)`
  rw [maximumf_apply, addf_apply, matmul_rows_5000_128, broadcastTo_1b_ab_apply]
  refine congrArg₂ max ?_ rfl
  refine congrArg (· + x3 (ix2 (0 : Fin 1) k)) (Finset.sum_congr rfl fun l _ => ?_)
  -- the node's row plus its neighbours' sum, at `(p, l)`
  rfl

/-- THE SECOND GIN BODY computes the same function of its blocks. -/
theorem gin1_row (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    Gen.out1_6 (F := Ideal) x0 x1 x2 x3 x4 x5 (ix2 p q)
      = Cert.Gnn.ginRow (fun l => x0 (ix2 p l)) (fun l => x1 (ix2 p l)) (fun l k => x2 (ix2 l k))
          (fun k => x3 (ix2 (0 : Fin 1) k)) (fun k j => x4 (ix2 k j)) (fun j => x5 (ix2 (0 : Fin 1) j)) q := by
  -- one whole-block store over whole-block loads: the stored block is the payload of the blocks themselves
  unfold Gen.out1_6
  rw [View.canon_unit_zero zero_offsets]
  simp only [View.ld_unit_zero (S := S5000x128) zero_offsets, View.ld_unit_zero (S := S128x128) zero_offsets,
    View.ld_unit_zero (S := S1x128) zero_offsets]
  unfold Gen.k1_pay1
  simp only [shapeCast_self]
  -- the second dense layer and its maximum with 0.0, at `(p, q)`
  rw [maximumf_apply, addf_apply, matmul_rows_5000_128, broadcastTo_1b_ab_apply]
  unfold Cert.Gnn.ginRow Cert.Gnn.denseRow
  refine congrArg₂ max ?_ rfl
  refine congrArg (· + x5 (ix2 (0 : Fin 1) q)) (Finset.sum_congr rfl fun k _ => ?_)
  refine congrArg (· * x4 (ix2 k q)) ?_
  -- the first dense layer and its maximum with 0.0, at `(p, k)`
  rw [maximumf_apply, addf_apply, matmul_rows_5000_128, broadcastTo_1b_ab_apply]
  refine congrArg₂ max ?_ rfl
  refine congrArg (· + x3 (ix2 (0 : Fin 1) k)) (Finset.sum_congr rfl fun l _ => ?_)
  -- the node's row plus its neighbours' sum, at `(p, l)`
  rfl

end Cert.Gnn.KernelRows

end
-- ==== Proof.Region0.lean ====
/-
  GIN region 0: the array its ten write-backs leave.

  At point `t` the body stores, at entry `(p, q)` of the result block, the GIN row function of row `p` of the two feature
  blocks and of the whole weights and biases.  Row `p` of a feature block at point `t` is row `5000 t + p` of the feature
  array, and entry `(p, q)` of the result block is entry `(5000 t + p, q)` of the result array.  So if `G` is a function on
  the result array's indices whose entry `(r, q)` is the GIN row function of row `r` of the two feature arrays, then every
  point writes back its block of `G`; the blocks cover the array; hence the array ends holding `G`.
-/
import proofs.«147787_j70952859730187_1_alg».proof.Proof.Blocks0
import proofs.«147787_j70952859730187_1_alg».proof.Proof.KernelRows

set_option maxRecDepth 16384

noncomputable section

namespace Cert.Gnn.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array after the region is `G`, for any `G` whose entry `(r, q)` is the GIN row function of row `r` of the
    feature arrays, the weights and the bias rows as the region finds them. -/
theorem array_eq (c : Dev nD) (G : S50000x128.Idx → EReal)
    (hG : ∀ (r : Fin 50000) (q : Fin 128), G (ix2 r q) = Cert.Gnn.ginRow
      (fun l => (V c main_arg0 : S50000x128.Idx → EReal) (ix2 r l)) (fun l => (V c main_v9 : S50000x128.Idx → EReal) (ix2 r l))
      (fun l k => (V c main_arg4 : S128x128.Idx → EReal) (ix2 l k)) (fun k => (V c main_v10 : S1x128.Idx → EReal) (ix2 (0 : Fin 1) k))
      (fun k j => (V c main_arg6 : S128x128.Idx → EReal) (ix2 k j)) (fun j => (V c main_v11 : S1x128.Idx → EReal) (ix2 (0 : Fin 1) j)) q) :
    (dat0 (F := Ideal) V c).arrAt 6 cfg0.N = G := by
  refine (dat0 (F := Ideal) V c).arrAt_eq_of_cover 6 G (fun t _ => ?_) (Cert.Gnn.Blocks0.cover)
  show (cfg0.win 6).cut (grid0.coords t) ((dat0 (F := Ideal) V c).after 6 t) = _
  rw [after0_6]
  funext y
  show (out0_6 (F := Ideal) (iblk0 V c 0 t) (iblk0 V c 1 t) (iblk0 V c 2 t) (iblk0 V c 3 t) (iblk0 V c 4 t) (iblk0 V c 5 t) : S5000x128.Idx → EReal) y
    = G (((cfg0.win 6).blk t).view.emb y)
  obtain ⟨p, q, rfl⟩ : ∃ (p : Fin 5000) (q : Fin 128), y = ix2 p q := ⟨y 0, y 1, eq_ix2 y⟩
  refine (Cert.Gnn.KernelRows.gin0_row (iblk0 V c 0 t) (iblk0 V c 1 t) (iblk0 V c 2 t) (iblk0 V c 3 t) (iblk0 V c 4 t) (iblk0 V c 5 t) p q).trans ?_
  rw [Cert.Gnn.Blocks0.out_emb t p q, hG]
  have h0 : (fun l : Fin 128 => (iblk0 V c 0 t : Vec Ideal S5000x128 .f32) (ix2 p l)) = fun l => (V c main_arg0 : S50000x128.Idx → EReal) (ix2 (Cert.Gnn.Blocks0.rowOf t p) l) :=
    funext fun l => Cert.Gnn.Blocks0.rows_0 V c t p l
  have h1 : (fun l : Fin 128 => (iblk0 V c 1 t : Vec Ideal S5000x128 .f32) (ix2 p l)) = fun l => (V c main_v9 : S50000x128.Idx → EReal) (ix2 (Cert.Gnn.Blocks0.rowOf t p) l) :=
    funext fun l => Cert.Gnn.Blocks0.rows_1 V c t p l
  have h2 : (fun (l k : Fin 128) => (iblk0 V c 2 t : Vec Ideal S128x128 .f32) (ix2 l k)) = fun l k => (V c main_arg4 : S128x128.Idx → EReal) (ix2 l k) :=
    funext fun l => funext fun k => Cert.Gnn.Blocks0.whole_2 V c t l k
  have h3 : (fun k : Fin 128 => (iblk0 V c 3 t : Vec Ideal S1x128 .f32) (ix2 (0 : Fin 1) k)) = fun k => (V c main_v10 : S1x128.Idx → EReal) (ix2 (0 : Fin 1) k) :=
    funext fun k => Cert.Gnn.Blocks0.whole_3 V c t 0 k
  have h4 : (fun (k j : Fin 128) => (iblk0 V c 4 t : Vec Ideal S128x128 .f32) (ix2 k j)) = fun k j => (V c main_arg6 : S128x128.Idx → EReal) (ix2 k j) :=
    funext fun k => funext fun j => Cert.Gnn.Blocks0.whole_4 V c t k j
  have h5 : (fun j : Fin 128 => (iblk0 V c 5 t : Vec Ideal S1x128 .f32) (ix2 (0 : Fin 1) j)) = fun j => (V c main_v11 : S1x128.Idx → EReal) (ix2 (0 : Fin 1) j) :=
    funext fun j => Cert.Gnn.Blocks0.whole_5 V c t 0 j
  rw [h0, h1, h2, h3, h4, h5]

end Cert.Gnn.Region0

end
-- ==== Proof.Blocks1.lean ====
/-
  GIN region 1: how the node axis is cut into blocks.

  The region runs over ten grid points.  At point `t` the two node-feature operands and the result are staged as the
  block of rows `5000 t … 5000 t + 4999` (all 128 columns); the two weight matrices and the two bias rows are staged
  whole at every point.  So an element `(p, l)` of a feature block is the element `(5000 t + p, l)` of its array, an
  element of a weight or bias block is the same element of its array, and since `10 · 5000 = 50000` the ten result blocks
  cover the result array: row `r` lies in the block of point `r / 5000`.
-/
import proofs.«147787_j70952859730187_1_alg».proof.Proof.Gen.KernelIdeal.Frame
import Idealize.ShloMosaic.Lib.Pipeline.Value
import Idealize.ShloMosaic.Lib.ValueIdx

set_option maxRecDepth 16384

noncomputable section

namespace Cert.Gnn.Blocks1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The printed index maps, decided over the ten grid points: the three row-blocked windows sit at block `(t, 0)`, the four
    whole windows at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- A grid point is below ten. -/
theorem point_lt (t : Fin cfg1.N) : t.val < 10 :=
  Nat.lt_of_lt_of_eq t.isLt (show cfg1.N = 10 from N_1)

/-- Row `p` of the block at point `t`, as a row of the array. -/
def rowOf (t : Fin cfg1.N) (p : Fin 5000) : Fin 50000 :=
  ⟨5000 * t.val + p.val, by have := point_lt t; have := p.isLt; omega⟩

/-- An element of a row block of the first feature operand is the array's element in row `5000 t + p`. -/
theorem rows_0 (c : Dev nD) (t : Fin cfg1.N) (p : Fin 5000) (l : Fin 128) :
    (iblk1 V c 0 t : Vec F S5000x128 .f32) (ix2 p l) = (V c main_v12 : S50000x128.Idx → Elt F .f32) (ix2 (rowOf t p) l) := by
  obtain ⟨e0, e1, -⟩ := index_facts t
  unfold iblk1
  rw [View.read_apply]
  show V c main_v12 _ = V c main_v12 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * l.val = l.val; rw [e1]; omega

/-- The same for the second feature operand (the neighbours' sums). -/
theorem rows_1 (c : Dev nD) (t : Fin cfg1.N) (p : Fin 5000) (l : Fin 128) :
    (iblk1 V c 1 t : Vec F S5000x128 .f32) (ix2 p l) = (V c main_v22 : S50000x128.Idx → Elt F .f32) (ix2 (rowOf t p) l) := by
  obtain ⟨-, -, e0, e1, -⟩ := index_facts t
  unfold iblk1
  rw [View.read_apply]
  show V c main_v22 _ = V c main_v22 _
  congr 1
  funext a
  apply Fin.ext
  match a with
  | ⟨0, _⟩ => show win1_1.index t 0 * 5000 + 1 * p.val = 5000 * t.val + p.val; rw [e0]; omega
  | ⟨1, _⟩ => show win1_1.index t 1 * 128 + 1 * l.val = l.val; rw [e1]; omega

/-- The first weight matrix is staged whole. -/
theorem whole_2 (c : Dev nD) (t : Fin cfg1.N) (k : Fin 128) (j : Fin 128) :
    (iblk1 V c 2 t : Vec F S128x128 .f32) (ix2 k j) = (V c main_arg8 : S128x128.Idx → Elt F .f32) (ix2 k j) := by
  obtain ⟨-, -, -, -, -, -, e0, e1, -⟩ := index_facts t
  unfold iblk1
  rw [View.read_apply]
  show V c main_arg8 _ = V c main_arg8 _
  congr 1
  funext a
  apply Fin.ext
  match a with
  | ⟨0, _⟩ => show win1_2.index t 0 * 128 + 1 * k.val = k.val; rw [e0]; omega
  | ⟨1, _⟩ => show win1_2.index t 1 * 128 + 1 * j.val = j.val; rw [e1]; omega

/-- The first bias row is staged whole. -/
theorem whole_3 (c : Dev nD) (t : Fin cfg1.N) (z : Fin 1) (j : Fin 128) :
    (iblk1 V c 3 t : Vec F S1x128 .f32) (ix2 z j) = (V c main_v23 : S1x128.Idx → Elt F .f32) (ix2 z j) := by
  obtain ⟨-, -, -, -, -, -, -, -, e0, e1, -⟩ := index_facts t
  unfold iblk1
  rw [View.read_apply]
  show V c main_v23 _ = V c main_v23 _
  congr 1
  funext a
  apply Fin.ext
  match a with
  | ⟨0, _⟩ => show win1_3.index t 0 * 1 + 1 * z.val = z.val; rw [e0]; omega
  | ⟨1, _⟩ => show win1_3.index t 1 * 128 + 1 * j.val = j.val; rw [e1]; omega

/-- The second weight matrix is staged whole. -/
theorem whole_4 (c : Dev nD) (t : Fin cfg1.N) (k : Fin 128) (j : Fin 128) :
    (iblk1 V c 4 t : Vec F S128x128 .f32) (ix2 k j) = (V c main_arg10 : S128x128.Idx → Elt F .f32) (ix2 k j) := by
  obtain ⟨-, -, -, -, -, -, -, -, -, -, e0, e1, -⟩ := index_facts t
  unfold iblk1
  rw [View.read_apply]
  show V c main_arg10 _ = V c main_arg10 _
  congr 1
  funext a
  apply Fin.ext
  match a with
  | ⟨0, _⟩ => show win1_4.index t 0 * 128 + 1 * k.val = k.val; rw [e0]; omega
  | ⟨1, _⟩ => show win1_4.index t 1 * 128 + 1 * j.val = j.val; rw [e1]; omega

/-- The second bias row is staged whole. -/
theorem whole_5 (c : Dev nD) (t : Fin cfg1.N) (z : Fin 1) (j : Fin 128) :
    (iblk1 V c 5 t : Vec F S1x128 .f32) (ix2 z j) = (V c main_v24 : S1x128.Idx → Elt F .f32) (ix2 z j) := by
  obtain ⟨-, -, -, -, -, -, -, -, -, -, -, -, e0, e1⟩ := index_facts t
  unfold iblk1
  rw [View.read_apply]
  show V c main_v24 _ = V c main_v24 _
  congr 1
  funext a
  apply Fin.ext
  match a with
  | ⟨0, _⟩ => show win1_5.index t 0 * 1 + 1 * z.val = z.val; rw [e0]; omega
  | ⟨1, _⟩ => show win1_5.index t 1 * 128 + 1 * j.val = j.val; rw [e1]; omega

/-- An element of the result block at point `t` sits in the result array in row `5000 t + p`. -/
theorem out_emb (t : Fin cfg1.N) (p : Fin 5000) (q : Fin 128) :
    (((cfg1.win 6).blk t).view.emb (ix2 p q) : S50000x128.Idx) = ix2 (rowOf t p) q := by
  obtain ⟨-, -, -, -, e0, e1, -⟩ := index_facts t
  funext a
  apply Fin.ext
  match a with
  | ⟨0, _⟩ => show win1_6.index t 0 * 5000 + 1 * p.val = 5000 * t.val + p.val; rw [e0]; omega
  | ⟨1, _⟩ => show win1_6.index t 1 * 128 + 1 * q.val = q.val; rw [e1]; omega

/-- An index of the result array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v25).slice (win1_6.rect t)).set ↔ _
  rw [View.set_slice_whole, Rect.mem_set_unit]
  exact Iff.rfl

/-- The ten result blocks cover the result array: row `r` is in the block of point `r / 5000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨-, -, -, -, e0, e1, -⟩ := index_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

end Cert.Gnn.Blocks1

end
-- ==== Proof.Region1.lean ====
/-
  GIN region 1: the array its ten write-backs leave.

  At point `t` the body stores, at entry `(p, q)` of the result block, the GIN row function of row `p` of the two feature
  blocks and of the whole weights and biases.  Row `p` of a feature block at point `t` is row `5000 t + p` of the feature
  array, and entry `(p, q)` of the result block is entry `(5000 t + p, q)` of the result array.  So if `G` is a function on
  the result array's indices whose entry `(r, q)` is the GIN row function of row `r` of the two feature arrays, then every
  point writes back its block of `G`; the blocks cover the array; hence the array ends holding `G`.
-/
import proofs.«147787_j70952859730187_1_alg».proof.Proof.Blocks1
import proofs.«147787_j70952859730187_1_alg».proof.Proof.KernelRows

set_option maxRecDepth 16384

noncomputable section

namespace Cert.Gnn.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array after the region is `G`, for any `G` whose entry `(r, q)` is the GIN row function of row `r` of the
    feature arrays, the weights and the bias rows as the region finds them. -/
theorem array_eq (c : Dev nD) (G : S50000x128.Idx → EReal)
    (hG : ∀ (r : Fin 50000) (q : Fin 128), G (ix2 r q) = Cert.Gnn.ginRow
      (fun l => (V c main_v12 : S50000x128.Idx → EReal) (ix2 r l)) (fun l => (V c main_v22 : S50000x128.Idx → EReal) (ix2 r l))
      (fun l k => (V c main_arg8 : S128x128.Idx → EReal) (ix2 l k)) (fun k => (V c main_v23 : S1x128.Idx → EReal) (ix2 (0 : Fin 1) k))
      (fun k j => (V c main_arg10 : S128x128.Idx → EReal) (ix2 k j)) (fun j => (V c main_v24 : S1x128.Idx → EReal) (ix2 (0 : Fin 1) j)) q) :
    (dat1 (F := Ideal) V c).arrAt 6 cfg1.N = G := by
  refine (dat1 (F := Ideal) V c).arrAt_eq_of_cover 6 G (fun t _ => ?_) (Cert.Gnn.Blocks1.cover)
  show (cfg1.win 6).cut (grid1.coords t) ((dat1 (F := Ideal) V c).after 6 t) = _
  rw [after1_6]
  funext y
  show (out1_6 (F := Ideal) (iblk1 V c 0 t) (iblk1 V c 1 t) (iblk1 V c 2 t) (iblk1 V c 3 t) (iblk1 V c 4 t) (iblk1 V c 5 t) : S5000x128.Idx → EReal) y
    = G (((cfg1.win 6).blk t).view.emb y)
  obtain ⟨p, q, rfl⟩ : ∃ (p : Fin 5000) (q : Fin 128), y = ix2 p q := ⟨y 0, y 1, eq_ix2 y⟩
  refine (Cert.Gnn.KernelRows.gin1_row (iblk1 V c 0 t) (iblk1 V c 1 t) (iblk1 V c 2 t) (iblk1 V c 3 t) (iblk1 V c 4 t) (iblk1 V c 5 t) p q).trans ?_
  rw [Cert.Gnn.Blocks1.out_emb t p q, hG]
  have h0 : (fun l : Fin 128 => (iblk1 V c 0 t : Vec Ideal S5000x128 .f32) (ix2 p l)) = fun l => (V c main_v12 : S50000x128.Idx → EReal) (ix2 (Cert.Gnn.Blocks1.rowOf t p) l) :=
    funext fun l => Cert.Gnn.Blocks1.rows_0 V c t p l
  have h1 : (fun l : Fin 128 => (iblk1 V c 1 t : Vec Ideal S5000x128 .f32) (ix2 p l)) = fun l => (V c main_v22 : S50000x128.Idx → EReal) (ix2 (Cert.Gnn.Blocks1.rowOf t p) l) :=
    funext fun l => Cert.Gnn.Blocks1.rows_1 V c t p l
  have h2 : (fun (l k : Fin 128) => (iblk1 V c 2 t : Vec Ideal S128x128 .f32) (ix2 l k)) = fun l k => (V c main_arg8 : S128x128.Idx → EReal) (ix2 l k) :=
    funext fun l => funext fun k => Cert.Gnn.Blocks1.whole_2 V c t l k
  have h3 : (fun k : Fin 128 => (iblk1 V c 3 t : Vec Ideal S1x128 .f32) (ix2 (0 : Fin 1) k)) = fun k => (V c main_v23 : S1x128.Idx → EReal) (ix2 (0 : Fin 1) k) :=
    funext fun k => Cert.Gnn.Blocks1.whole_3 V c t 0 k
  have h4 : (fun (k j : Fin 128) => (iblk1 V c 4 t : Vec Ideal S128x128 .f32) (ix2 k j)) = fun k j => (V c main_arg10 : S128x128.Idx → EReal) (ix2 k j) :=
    funext fun k => funext fun j => Cert.Gnn.Blocks1.whole_4 V c t k j
  have h5 : (fun j : Fin 128 => (iblk1 V c 5 t : Vec Ideal S1x128 .f32) (ix2 (0 : Fin 1) j)) = fun j => (V c main_v24 : S1x128.Idx → EReal) (ix2 (0 : Fin 1) j) :=
    funext fun j => Cert.Gnn.Blocks1.whole_5 V c t 0 j
  rw [h0, h1, h2, h3, h4, h5]

end Cert.Gnn.Region1

end
-- ==== Proof.Blocks2.lean ====
/-
  The classifier region: one grid point, every operand staged whole.

  The region runs over a single grid point.  At that point each of the five operands (the pooled block of 16 rows, the two
  weight matrices and the two bias rows) is staged as its whole array, at block `(0, 0)`, and so is the result.  So an
  element of an operand's block is the same element of its array, an element `(p, q)` of the result block sits at `(p, q)`
  of the result array, and the one result block is the whole result array: every index of the array is in it.
-/
import proofs.«147787_j70952859730187_1_alg».proof.Proof.Gen.KernelIdeal.Frame
import Idealize.ShloMosaic.Lib.Pipeline.Value
import Idealize.ShloMosaic.Lib.ValueIdx

set_option maxRecDepth 16384

noncomputable section

namespace Cert.Gnn.Blocks2

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The printed index maps, decided over the one grid point: all six windows sit at block `(0, 0)`. -/
theorem index_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- There is one grid point. -/
theorem point_eq_zero (t : Fin cfg2.N) : t.val = 0 := by
  have h : t.val < 1 := Nat.lt_of_lt_of_eq t.isLt (show cfg2.N = 1 from N_2)
  omega

/-- The pooled block of 16 rows is staged whole. -/
theorem whole_0 (c : Dev nD) (t : Fin cfg2.N) (p : Fin 16) (l : Fin 128) :
    (iblk2 V c 0 t : Vec F S16x128 .f32) (ix2 p l) = (V c main_v36 : S16x128.Idx → Elt F .f32) (ix2 p l) := by
  obtain ⟨e0, e1, -⟩ := index_facts t
  unfold iblk2
  rw [View.read_apply]
  show V c main_v36 _ = V c main_v36 _
  congr 1
  funext a
  apply Fin.ext
  match a with
  | ⟨0, _⟩ => show win2_0.index t 0 * 16 + 1 * p.val = p.val; rw [e0]; omega
  | ⟨1, _⟩ => show win2_0.index t 1 * 128 + 1 * l.val = l.val; rw [e1]; omega

/-- The first weight matrix is staged whole. -/
theorem whole_1 (c : Dev nD) (t : Fin cfg2.N) (k : Fin 128) (j : Fin 128) :
    (iblk2 V c 1 t : Vec F S128x128 .f32) (ix2 k j) = (V c main_arg12 : S128x128.Idx → Elt F .f32) (ix2 k j) := by
  obtain ⟨-, -, e0, e1, -⟩ := index_facts t
  unfold iblk2
  rw [View.read_apply]
  show V c main_arg12 _ = V c main_arg12 _
  congr 1
  funext a
  apply Fin.ext
  match a with
  | ⟨0, _⟩ => show win2_1.index t 0 * 128 + 1 * k.val = k.val; rw [e0]; omega
  | ⟨1, _⟩ => show win2_1.index t 1 * 128 + 1 * j.val = j.val; rw [e1]; omega

/-- The first bias row is staged whole. -/
theorem whole_2 (c : Dev nD) (t : Fin cfg2.N) (z : Fin 1) (j : Fin 128) :
    (iblk2 V c 2 t : Vec F S1x128 .f32) (ix2 z j) = (V c main_v37 : S1x128.Idx → Elt F .f32) (ix2 z j) := by
  obtain ⟨-, -, -, -, e0, e1, -⟩ := index_facts t
  unfold iblk2
  rw [View.read_apply]
  show V c main_v37 _ = V c main_v37 _
  congr 1
  funext a
  apply Fin.ext
  match a with
  | ⟨0, _⟩ => show win2_2.index t 0 * 1 + 1 * z.val = z.val; rw [e0]; omega
  | ⟨1, _⟩ => show win2_2.index t 1 * 128 + 1 * j.val = j.val; rw [e1]; omega

/-- The second weight matrix, into the 10 classes, is staged whole. -/
theorem whole_3 (c : Dev nD) (t : Fin cfg2.N) (k : Fin 128) (j : Fin 10) :
    (iblk2 V c 3 t : Vec F S128x10 .f32) (ix2 k j) = (V c main_arg14 : S128x10.Idx → Elt F .f32) (ix2 k j) := by
  obtain ⟨-, -, -, -, -, -, e0, e1, -⟩ := index_facts t
  unfold iblk2
  rw [View.read_apply]
  show V c main_arg14 _ = V c main_arg14 _
  congr 1
  funext a
  apply Fin.ext
  match a with
  | ⟨0, _⟩ => show win2_3.index t 0 * 128 + 1 * k.val = k.val; rw [e0]; omega
  | ⟨1, _⟩ => show win2_3.index t 1 * 10 + 1 * j.val = j.val; rw [e1]; omega

/-- The second bias row is staged whole. -/
theorem whole_4 (c : Dev nD) (t : Fin cfg2.N) (z : Fin 1) (j : Fin 10) :
    (iblk2 V c 4 t : Vec F S1x10 .f32) (ix2 z j) = (V c main_v38 : S1x10.Idx → Elt F .f32) (ix2 z j) := by
  obtain ⟨-, -, -, -, -, -, -, -, e0, e1, -⟩ := index_facts t
  unfold iblk2
  rw [View.read_apply]
  show V c main_v38 _ = V c main_v38 _
  congr 1
  funext a
  apply Fin.ext
  match a with
  | ⟨0, _⟩ => show win2_4.index t 0 * 1 + 1 * z.val = z.val; rw [e0]; omega
  | ⟨1, _⟩ => show win2_4.index t 1 * 10 + 1 * j.val = j.val; rw [e1]; omega

/-- An element `(p, q)` of the result block sits at `(p, q)` of the result array. -/
theorem out_emb (t : Fin cfg2.N) (p : Fin 16) (q : Fin 10) :
    (((cfg2.win 5).blk t).view.emb (ix2 p q) : S16x10.Idx) = ix2 p q := by
  obtain ⟨-, -, -, -, -, -, -, -, -, -, e0, e1⟩ := index_facts t
  funext a
  apply Fin.ext
  match a with
  | ⟨0, _⟩ => show win2_5.index t 0 * 16 + 1 * p.val = p.val; rw [e0]; omega
  | ⟨1, _⟩ => show win2_5.index t 1 * 10 + 1 * q.val = q.val; rw [e1]; omega

/-- An index of the result array is in point `t`'s block iff each coordinate is in the block's range on its axis. -/
theorem mem_blk (t : Fin cfg2.N) (i : S16x10.Idx) :
    i ∈ ((cfg2.win 5).blk t).view.set ↔ ∀ a : Fin 2, win2_5.index t a * S16x10.size a ≤ (i a).val ∧ (i a).val < win2_5.index t a * S16x10.size a + S16x10.size a := by
  show i ∈ ((View.whole main_v39).slice (win2_5.rect t)).set ↔ _
  rw [View.set_slice_whole, Rect.mem_set_unit]
  exact Iff.rfl

/-- The one result block is the whole result array: every index is in the block of the one grid point. -/
theorem cover (i : S16x10.Idx) :
    ∃ t : Fin cfg2.N, (cfg2.win 5).flush t = true ∧ i ∈ ((cfg2.win 5).blk t).view.set := by
  have hi0 : (i 0).val < 16 := (i 0).isLt
  have hi1 : (i 1).val < 10 := (i 1).isLt
  have hN : cfg2.N = 1 := N_2
  let t : Fin cfg2.N := ⟨0, by rw [hN]; omega⟩
  obtain ⟨-, -, -, -, -, -, -, -, -, -, e0, e1⟩ := index_facts t
  refine ⟨t, flush2_5 t, ?_⟩
  rw [mem_blk]
  intro a
  match a with
  | ⟨0, _⟩ => show win2_5.index t (0 : Fin 2) * 16 ≤ (i 0).val ∧ (i 0).val < win2_5.index t (0 : Fin 2) * 16 + 16; rw [e0]; omega
  | ⟨1, _⟩ => show win2_5.index t (1 : Fin 2) * 10 ≤ (i 1).val ∧ (i 1).val < win2_5.index t (1 : Fin 2) * 10 + 10; rw [e1]; omega

end Cert.Gnn.Blocks2

end
-- ==== Proof.Region2.lean ====
/-
  The classifier region: the array its one write-back leaves.

  The region has one grid point and stages every operand whole.  Its body stores, at entry `(p, q)` of the result block,
  the classifier row function of row `p` of the pooled rows and of the whole weights and biases; the one result block is
  the result array.  So if `G` is a function on the result array's indices whose entry `(r, q)` is the classifier row
  function of row `r` of the pooled rows, the array ends holding `G`.
-/
import proofs.«147787_j70952859730187_1_alg».proof.Proof.Blocks2
import proofs.«147787_j70952859730187_1_alg».proof.Proof.KernelRows

set_option maxRecDepth 16384

noncomputable section

namespace Cert.Gnn.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array after the region is `G`, for any `G` whose entry `(r, q)` is the classifier row function of row `r`
    of the pooled rows, the weights and the bias rows as the region finds them. -/
theorem array_eq (c : Dev nD) (G : S16x10.Idx → EReal)
    (hG : ∀ (r : Fin 16) (q : Fin 10), G (ix2 r q) = Cert.Gnn.clsRow
      (fun l => (V c main_v36 : S16x128.Idx → EReal) (ix2 r l))
      (fun l k => (V c main_arg12 : S128x128.Idx → EReal) (ix2 l k)) (fun k => (V c main_v37 : S1x128.Idx → EReal) (ix2 (0 : Fin 1) k))
      (fun k j => (V c main_arg14 : S128x10.Idx → EReal) (ix2 k j)) (fun j => (V c main_v38 : S1x10.Idx → EReal) (ix2 (0 : Fin 1) j)) q) :
    (dat2 (F := Ideal) V c).arrAt 5 cfg2.N = G := by
  refine (dat2 (F := Ideal) V c).arrAt_eq_of_cover 5 G (fun t _ => ?_) (Cert.Gnn.Blocks2.cover)
  show (cfg2.win 5).cut (grid2.coords t) ((dat2 (F := Ideal) V c).after 5 t) = _
  rw [after2_5]
  funext y
  show (out2_5 (F := Ideal) (iblk2 V c 0 t) (iblk2 V c 1 t) (iblk2 V c 2 t) (iblk2 V c 3 t) (iblk2 V c 4 t) : S16x10.Idx → EReal) y
    = G (((cfg2.win 5).blk t).view.emb y)
  obtain ⟨p, q, rfl⟩ : ∃ (p : Fin 16) (q : Fin 10), y = ix2 p q := ⟨y 0, y 1, eq_ix2 y⟩
  refine (Cert.Gnn.KernelRows.cls_row (iblk2 V c 0 t) (iblk2 V c 1 t) (iblk2 V c 2 t) (iblk2 V c 3 t) (iblk2 V c 4 t) p q).trans ?_
  rw [Cert.Gnn.Blocks2.out_emb t p q, hG]
  have h0 : (fun l : Fin 128 => (iblk2 V c 0 t : Vec Ideal S16x128 .f32) (ix2 p l)) = fun l => (V c main_v36 : S16x128.Idx → EReal) (ix2 p l) :=
    funext fun l => Cert.Gnn.Blocks2.whole_0 V c t p l
  have h1 : (fun (l k : Fin 128) => (iblk2 V c 1 t : Vec Ideal S128x128 .f32) (ix2 l k)) = fun l k => (V c main_arg12 : S128x128.Idx → EReal) (ix2 l k) :=
    funext fun l => funext fun k => Cert.Gnn.Blocks2.whole_1 V c t l k
  have h2 : (fun k : Fin 128 => (iblk2 V c 2 t : Vec Ideal S1x128 .f32) (ix2 (0 : Fin 1) k)) = fun k => (V c main_v37 : S1x128.Idx → EReal) (ix2 (0 : Fin 1) k) :=
    funext fun k => Cert.Gnn.Blocks2.whole_2 V c t 0 k
  have h3 : (fun (k : Fin 128) (j : Fin 10) => (iblk2 V c 3 t : Vec Ideal S128x10 .f32) (ix2 k j)) = fun k j => (V c main_arg14 : S128x10.Idx → EReal) (ix2 k j) :=
    funext fun k => funext fun j => Cert.Gnn.Blocks2.whole_3 V c t k j
  have h4 : (fun j : Fin 10 => (iblk2 V c 4 t : Vec Ideal S1x10 .f32) (ix2 (0 : Fin 1) j)) = fun j => (V c main_v38 : S1x10.Idx → EReal) (ix2 (0 : Fin 1) j) :=
    funext fun j => Cert.Gnn.Blocks2.whole_4 V c t 0 j
  rw [h0, h1, h2, h3, h4]

end Cert.Gnn.Region2

end
-- ==== Proof.RefRows.lean ====
/-
  The reference program, read one ROW at a time.

  Each dense stage of the reference is a product of a matrix of rows with a weight matrix, a bias added to every row, and
  (except for the last stage) the maximum with the float word 0.0.  Read at the entry in row `r` and column `q`, the
  product is the sum over `k` of the left operand at `(r, k)` times the weight at `(k, q)`, the bias is read at `q`, and
  the word 0.0 is the same at every entry.  So an entry of a stage's result depends on row `r` of the stage's input only,
  and two (or, with the neighbour sum added first, three) such stages chained are exactly the row functions
  `Cert.Gnn.clsRow` and `Cert.Gnn.ginRow`.

  The neighbour sums (scatter-adds of gathered rows) and the pooled means are not opened: they enter the statements as
  named terms read at `(r, l)`.
-/
import proofs.«147787_j70952859730187_1_alg».proof.Proof.Gen.ReferenceIdeal.Read
import proofs.«147787_j70952859730187_1_alg».proof.Proof.Spec
import Idealize.ShloMosaic.Lib.ValueIdx
import Idealize.ShloMosaic.PureOps.Ideal.Laws

noncomputable section

open scoped BigOperators

namespace Cert.Gnn.RefRows

open Cert.ReferenceIdeal Cert.ReferenceIdeal.Read Idealize.ShloMosaic Idealize.ShloMosaic.ValueIdx

variable (x0 : (⟨S50000x128, .f32⟩ : BufTy).Contents (Elt Ideal))
  (x1 x2 : (⟨S800000, .i32⟩ : BufTy).Contents (Elt Ideal))
  (x3 : (⟨S50000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x10, .f32⟩ : BufTy).Contents (Elt Ideal)) (x15 : (⟨S10, .f32⟩ : BufTy).Contents (Elt Ideal))

/-! ## The first GIN layer -/

/-- In the first layer's first product, entry `(r, q)` reads the left operand along row `r`. -/
theorem lidx11 (r : Fin 50000) (q k : Fin 128) : lidx_main_v11 (ix2 r q) k = ix2 r k :=
  funext fun a => Fin.ext (by match a with | ⟨0, _⟩ => rfl | ⟨1, _⟩ => rfl)
/-- … and the weight down column `q`. -/
theorem ridx11 (r : Fin 50000) (q k : Fin 128) : ridx_main_v11 (ix2 r q) k = ix2 k q :=
  funext fun a => Fin.ext (by match a with | ⟨0, _⟩ => rfl | ⟨1, _⟩ => rfl)
/-- Its bias, broadcast to every row, is read at the column. -/
theorem bidx13 (r : Fin 50000) (q : Fin 128) : idx_main_v12 (idx_main_v13 (ix2 r q)) = ix1 q :=
  funext fun a => Fin.ext (by match a with | ⟨0, _⟩ => rfl)

/-- In the first layer's second product, entry `(r, q)` reads the left operand along row `r`. -/
theorem lidx16 (r : Fin 50000) (q k : Fin 128) : lidx_main_v16 (ix2 r q) k = ix2 r k :=
  funext fun a => Fin.ext (by match a with | ⟨0, _⟩ => rfl | ⟨1, _⟩ => rfl)
/-- … and the weight down column `q`. -/
theorem ridx16 (r : Fin 50000) (q k : Fin 128) : ridx_main_v16 (ix2 r q) k = ix2 k q :=
  funext fun a => Fin.ext (by match a with | ⟨0, _⟩ => rfl | ⟨1, _⟩ => rfl)
/-- Its bias, broadcast to every row, is read at the column. -/
theorem bidx18 (r : Fin 50000) (q : Fin 128) : idx_main_v17 (idx_main_v18 (ix2 r q)) = ix1 q :=
  funext fun a => Fin.ext (by match a with | ⟨0, _⟩ => rfl)

/-- The first layer's hidden stage at `(r, k)`: the dense row of node `r`'s features plus its neighbours' sum, then the
    maximum with 0.0. -/
theorem hidden1 (r : Fin 50000) (k : Fin 128) :
    val_main_v15 (F := Ideal) x0 x1 x2 x4 x5 (ix2 r k)
      = max (Cert.Gnn.denseRow (fun l => x0 (ix2 r l) + val_main_v9 (F := Ideal) x0 x1 x2 (ix2 r l))
          (fun l k => x4 (ix2 l k)) (fun k => x5 (ix1 k)) k) Cert.Gnn.zeroW := by
  rw [val_main_v15_apply, val_main_v14_apply, val_main_v11_apply, val_main_v13_apply, val_main_v12_apply,
    val_main_call0_v0_apply, val_main_call0_cst_apply]
  simp only [lidx11, ridx11, bidx13, val_main_v10_apply, Ideal.addf_def, Ideal.maximumf_def, Ideal.ofBits_def]
  rfl

/-- The first layer's output at `(r, q)` is the GIN row function of node `r`'s features and its neighbours' sum. -/
theorem layer1_row (r : Fin 50000) (q : Fin 128) :
    val_main_v20 (F := Ideal) x0 x1 x2 x4 x5 x6 x7 (ix2 r q)
      = Cert.Gnn.ginRow (fun l => x0 (ix2 r l)) (fun l => val_main_v9 (F := Ideal) x0 x1 x2 (ix2 r l))
          (fun l k => x4 (ix2 l k)) (fun k => x5 (ix1 k)) (fun k j => x6 (ix2 k j)) (fun j => x7 (ix1 j)) q := by
  rw [val_main_v20_apply, val_main_v19_apply, val_main_v16_apply, val_main_v18_apply, val_main_v17_apply,
    val_main_call1_v0_apply, val_main_call1_cst_apply]
  simp only [lidx16, ridx16, bidx18, Ideal.addf_def, Ideal.maximumf_def, Ideal.ofBits_def, hidden1]
  rfl

/-! ## The second GIN layer -/

/-- In the second layer's first product, entry `(r, q)` reads the left operand along row `r`. -/
theorem lidx32 (r : Fin 50000) (q k : Fin 128) : lidx_main_v32 (ix2 r q) k = ix2 r k :=
  funext fun a => Fin.ext (by match a with | ⟨0, _⟩ => rfl | ⟨1, _⟩ => rfl)
/-- … and the weight down column `q`. -/
theorem ridx32 (r : Fin 50000) (q k : Fin 128) : ridx_main_v32 (ix2 r q) k = ix2 k q :=
  funext fun a => Fin.ext (by match a with | ⟨0, _⟩ => rfl | ⟨1, _⟩ => rfl)
/-- Its bias, broadcast to every row, is read at the column. -/
theorem bidx34 (r : Fin 50000) (q : Fin 128) : idx_main_v33 (idx_main_v34 (ix2 r q)) = ix1 q :=
  funext fun a => Fin.ext (by match a with | ⟨0, _⟩ => rfl)

/-- In the second layer's second product, entry `(r, q)` reads the left operand along row `r`. -/
theorem lidx37 (r : Fin 50000) (q k : Fin 128) : lidx_main_v37 (ix2 r q) k = ix2 r k :=
  funext fun a => Fin.ext (by match a with | ⟨0, _⟩ => rfl | ⟨1, _⟩ => rfl)
/-- … and the weight down column `q`. -/
theorem ridx37 (r : Fin 50000) (q k : Fin 128) : ridx_main_v37 (ix2 r q) k = ix2 k q :=
  funext fun a => Fin.ext (by match a with | ⟨0, _⟩ => rfl | ⟨1, _⟩ => rfl)
/-- Its bias, broadcast to every row, is read at the column. -/
theorem bidx39 (r : Fin 50000) (q : Fin 128) : idx_main_v38 (idx_main_v39 (ix2 r q)) = ix1 q :=
  funext fun a => Fin.ext (by match a with | ⟨0, _⟩ => rfl)

/-- The second layer's hidden stage at `(r, k)`: the dense row of node `r`'s first-layer row plus its neighbours' sum,
    then the maximum with 0.0.  The first layer's output stays a named term. -/
theorem hidden2 (r : Fin 50000) (k : Fin 128) :
    val_main_v36 (F := Ideal) x0 x1 x2 x4 x5 x6 x7 x8 x9 (ix2 r k)
      = max (Cert.Gnn.denseRow (fun l => val_main_v20 (F := Ideal) x0 x1 x2 x4 x5 x6 x7 (ix2 r l)
            + val_main_v30 (F := Ideal) x0 x1 x2 x4 x5 x6 x7 (ix2 r l))
          (fun l k => x8 (ix2 l k)) (fun k => x9 (ix1 k)) k) Cert.Gnn.zeroW := by
  rw [val_main_v36_apply, val_main_v35_apply, val_main_v32_apply, val_main_v34_apply, val_main_v33_apply,
    val_main_call2_v0_apply, val_main_call2_cst_apply]
  simp only [lidx32, ridx32, bidx34, val_main_v31_apply, Ideal.addf_def, Ideal.maximumf_def, Ideal.ofBits_def]
  rfl

/-- The second layer's output at `(r, q)` is the GIN row function of node `r`'s first-layer row and its neighbours'
    sum. -/
theorem layer2_row (r : Fin 50000) (q : Fin 128) :
    val_main_v41 (F := Ideal) x0 x1 x2 x4 x5 x6 x7 x8 x9 x10 x11 (ix2 r q)
      = Cert.Gnn.ginRow (fun l => val_main_v20 (F := Ideal) x0 x1 x2 x4 x5 x6 x7 (ix2 r l))
          (fun l => val_main_v30 (F := Ideal) x0 x1 x2 x4 x5 x6 x7 (ix2 r l))
          (fun l k => x8 (ix2 l k)) (fun k => x9 (ix1 k)) (fun k j => x10 (ix2 k j)) (fun j => x11 (ix1 j)) q := by
  rw [val_main_v41_apply, val_main_v40_apply, val_main_v37_apply, val_main_v39_apply, val_main_v38_apply,
    val_main_call3_v0_apply, val_main_call3_cst_apply]
  simp only [lidx37, ridx37, bidx39, Ideal.addf_def, Ideal.maximumf_def, Ideal.ofBits_def, hidden2]
  rfl

/-! ## The classifier -/

/-- In the classifier's first product, entry `(r, q)` reads the left operand along row `r`. -/
theorem lidx53 (r : Fin 16) (q k : Fin 128) : lidx_main_v53 (ix2 r q) k = ix2 r k :=
  funext fun a => Fin.ext (by match a with | ⟨0, _⟩ => rfl | ⟨1, _⟩ => rfl)
/-- … and the weight down column `q`. -/
theorem ridx53 (r : Fin 16) (q k : Fin 128) : ridx_main_v53 (ix2 r q) k = ix2 k q :=
  funext fun a => Fin.ext (by match a with | ⟨0, _⟩ => rfl | ⟨1, _⟩ => rfl)
/-- The first bias, broadcast to every row, is read at the column. -/
theorem bidx55 (r : Fin 16) (q : Fin 128) : idx_main_v54 (idx_main_v55 (ix2 r q)) = ix1 q :=
  funext fun a => Fin.ext (by match a with | ⟨0, _⟩ => rfl)
/-- In the classifier's second product, entry `(r, q)` reads the left operand along row `r`. -/
theorem lidx58 (r : Fin 16) (q : Fin 10) (k : Fin 128) : lidx_main_v58 (ix2 r q) k = ix2 r k :=
  funext fun a => Fin.ext (by match a with | ⟨0, _⟩ => rfl | ⟨1, _⟩ => rfl)
/-- … and the weight down column `q`. -/
theorem ridx58 (r : Fin 16) (q : Fin 10) (k : Fin 128) : ridx_main_v58 (ix2 r q) k = ix2 k q :=
  funext fun a => Fin.ext (by match a with | ⟨0, _⟩ => rfl | ⟨1, _⟩ => rfl)
/-- The second bias, broadcast to every row, is read at the column. -/
theorem bidx60 (r : Fin 16) (q : Fin 10) : idx_main_v59 (idx_main_v60 (ix2 r q)) = ix1 q :=
  funext fun a => Fin.ext (by match a with | ⟨0, _⟩ => rfl)

/-- The classifier's hidden layer at `(r, k)`: the dense row of the pooled row `r`, then the maximum with 0.0. -/
theorem hidden_cls (r : Fin 16) (k : Fin 128) :
    val_main_v57 (F := Ideal) x0 x1 x2 x3 x4 x5 x6 x7 x8 x9 x10 x11 x12 x13 (ix2 r k)
      = max (Cert.Gnn.denseRow (fun l => val_main_v52 (F := Ideal) x0 x1 x2 x3 x4 x5 x6 x7 x8 x9 x10 x11 (ix2 r l))
          (fun l k => x12 (ix2 l k)) (fun k => x13 (ix1 k)) k) Cert.Gnn.zeroW := by
  rw [val_main_v57_apply, val_main_v56_apply, val_main_v53_apply, val_main_v55_apply, val_main_v54_apply,
    val_main_call4_v0_apply, val_main_call4_cst_apply]
  simp only [lidx53, ridx53, bidx55, Ideal.addf_def, Ideal.maximumf_def, Ideal.ofBits_def]
  rfl

/-- The classifier's output at `(r, q)` is the classifier's row function of the pooled row `r`. -/
theorem cls_row (r : Fin 16) (q : Fin 10) :
    val_main_v61 (F := Ideal) x0 x1 x2 x3 x4 x5 x6 x7 x8 x9 x10 x11 x12 x13 x14 x15 (ix2 r q)
      = Cert.Gnn.clsRow (fun l => val_main_v52 (F := Ideal) x0 x1 x2 x3 x4 x5 x6 x7 x8 x9 x10 x11 (ix2 r l))
          (fun l k => x12 (ix2 l k)) (fun k => x13 (ix1 k)) (fun k j => x14 (ix2 k j)) (fun j => x15 (ix1 j)) q := by
  rw [val_main_v61_apply, val_main_v58_apply, val_main_v60_apply, val_main_v59_apply]
  simp only [lidx58, ridx58, bidx60, Ideal.addf_def, hidden_cls]
  rfl

end Cert.Gnn.RefRows

end
-- ==== Proof.HostAgree.lean ====
/-
  The reference's irregular steps are the functions `Cert.Gnn.aggregate` and `Cert.Gnn.pool`.

  The reference computes each neighbours' sum by the same chain as `aggregate`: the edge sources below zero are moved up
  by the number of nodes, the rows are gathered there, and the gathered rows are added into a zero array at the edge
  destinations.  It computes the pooled means by the same chain as `pool`: node rows added into a zero array at the graph
  ids, divided by the count of each graph's nodes, the count taken at least 1.  The operations, their shape parameters
  and their constant words are the same literals on both sides; the shape records differ only in the proofs that they are
  well formed, and two proofs of one proposition are equal.  So each equation holds by unfolding the names.

  The arrays the second sum and the pooling are applied to (the first and second layers' outputs) are not opened.
-/
import proofs.«147787_j70952859730187_1_alg».proof.Proof.Gen.ReferenceIdeal.Read
import proofs.«147787_j70952859730187_1_alg».proof.Proof.HostChains

noncomputable section

namespace Cert.Gnn.HostAgree

open Cert.ReferenceIdeal Cert.ReferenceIdeal.Gen Cert.ReferenceIdeal.Read Idealize.ShloMosaic

variable {F : FTy → Type} [FloatOps F]

variable (x0 : (⟨S50000x128, .f32⟩ : BufTy).Contents (Elt F))
  (x1 x2 : (⟨S800000, .i32⟩ : BufTy).Contents (Elt F))
  (x3 : (⟨S50000, .i32⟩ : BufTy).Contents (Elt F))
  (x4 : (⟨S128x128, .f32⟩ : BufTy).Contents (Elt F)) (x5 : (⟨S128, .f32⟩ : BufTy).Contents (Elt F))
  (x6 : (⟨S128x128, .f32⟩ : BufTy).Contents (Elt F)) (x7 : (⟨S128, .f32⟩ : BufTy).Contents (Elt F))
  (x8 : (⟨S128x128, .f32⟩ : BufTy).Contents (Elt F)) (x9 : (⟨S128, .f32⟩ : BufTy).Contents (Elt F))
  (x10 : (⟨S128x128, .f32⟩ : BufTy).Contents (Elt F)) (x11 : (⟨S128, .f32⟩ : BufTy).Contents (Elt F))

/-- The first layer's neighbours' sum is `aggregate` of the node features along the edges. -/
theorem v9_eq : val_main_v9 (F := F) x0 x1 x2 = Cert.Gnn.aggregate x0 x1 x2 := by
  unfold val_main_v9 val_main_v7 val_main_v8 val_main_v6 val_main_v5 val_main_v4 val_main_v3 val_main_v2 val_main_v1
    val_main_v0 val_main_c val_main_c_0 val_main_cst Cert.Gnn.aggregate
  rfl

/-- The second layer's neighbours' sum is `aggregate` of the first layer's output along the same edges. -/
theorem v30_eq : val_main_v30 (F := F) x0 x1 x2 x4 x5 x6 x7
    = Cert.Gnn.aggregate (val_main_v20 (F := F) x0 x1 x2 x4 x5 x6 x7) x1 x2 := by
  unfold val_main_v30 val_main_v28 val_main_v29 val_main_v27 val_main_v26 val_main_v25 val_main_v24 val_main_v23
    val_main_v22 val_main_v21 val_main_c_1 val_main_c_2 val_main_cst_3 Cert.Gnn.aggregate
  generalize val_main_v20 (F := F) x0 x1 x2 x4 x5 x6 x7 = y
  rfl

/-- The pooled means are `pool` of the second layer's output at the graph ids. -/
theorem v52_eq : val_main_v52 (F := F) x0 x1 x2 x3 x4 x5 x6 x7 x8 x9 x10 x11
    = Cert.Gnn.pool (val_main_v41 (F := F) x0 x1 x2 x4 x5 x6 x7 x8 x9 x10 x11) x3 := by
  unfold val_main_v52 val_main_v44 val_main_v42 val_main_v43 val_main_v51 val_main_v50 val_main_v48 val_main_v46
    val_main_v47 val_main_v45 val_main_v49 val_main_cst_4 val_main_cst_5 val_main_cst_6 val_main_cst_7 Cert.Gnn.pool
  generalize val_main_v41 (F := F) x0 x1 x2 x4 x5 x6 x7 x8 x9 x10 x11 = y
  rfl

end Cert.Gnn.HostAgree

end
-- ==== Proof.KernelValue.lean ====
/-
  The idealized kernel's result, as the reference's own stages of the arguments.

  Three steps, one per region.  The first GIN region's result array is the reference's first-layer stage of the arguments:
  the region's feature operand is the input features, its neighbours' sums are `aggregate` of them along the edges (the
  reference's first neighbours' sum), its weights and biases are the arguments, and both sides are the GIN row function
  row by row.  The second GIN region's result is the reference's second-layer stage: its feature operand is the first
  region's result, that is the first-layer stage, and its neighbours' sums are `aggregate` of that.  The classifier
  region's result is the reference's last stage: it reads `pool` of the second-layer stage at the graph ids, and both
  sides are the classifier row function row by row.
-/
import proofs.«147787_j70952859730187_1_alg».proof.Proof.Stages
import proofs.«147787_j70952859730187_1_alg».proof.Proof.Region0
import proofs.«147787_j70952859730187_1_alg».proof.Proof.Region1
import proofs.«147787_j70952859730187_1_alg».proof.Proof.Region2
import proofs.«147787_j70952859730187_1_alg».proof.Proof.RefRows
import proofs.«147787_j70952859730187_1_alg».proof.Proof.HostAgree

set_option maxRecDepth 16384

noncomputable section

namespace Cert.Gnn.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- Argument 0 at launch. -/
abbrev a0 (c : Dev nD) : Buf (Elt Ideal) ((c : Thread nD τ).loc main_arg0) := m ((c : Thread nD τ).loc main_arg0)
/-- Argument 1 at launch. -/
abbrev a1 (c : Dev nD) : Buf (Elt Ideal) ((c : Thread nD τ).loc main_arg1) := m ((c : Thread nD τ).loc main_arg1)
/-- Argument 2 at launch. -/
abbrev a2 (c : Dev nD) : Buf (Elt Ideal) ((c : Thread nD τ).loc main_arg2) := m ((c : Thread nD τ).loc main_arg2)
/-- Argument 3 at launch. -/
abbrev a3 (c : Dev nD) : Buf (Elt Ideal) ((c : Thread nD τ).loc main_arg3) := m ((c : Thread nD τ).loc main_arg3)
/-- Argument 4 at launch. -/
abbrev a4 (c : Dev nD) : Buf (Elt Ideal) ((c : Thread nD τ).loc main_arg4) := m ((c : Thread nD τ).loc main_arg4)
/-- Argument 5 at launch. -/
abbrev a5 (c : Dev nD) : Buf (Elt Ideal) ((c : Thread nD τ).loc main_arg5) := m ((c : Thread nD τ).loc main_arg5)
/-- Argument 6 at launch. -/
abbrev a6 (c : Dev nD) : Buf (Elt Ideal) ((c : Thread nD τ).loc main_arg6) := m ((c : Thread nD τ).loc main_arg6)
/-- Argument 7 at launch. -/
abbrev a7 (c : Dev nD) : Buf (Elt Ideal) ((c : Thread nD τ).loc main_arg7) := m ((c : Thread nD τ).loc main_arg7)
/-- Argument 8 at launch. -/
abbrev a8 (c : Dev nD) : Buf (Elt Ideal) ((c : Thread nD τ).loc main_arg8) := m ((c : Thread nD τ).loc main_arg8)
/-- Argument 9 at launch. -/
abbrev a9 (c : Dev nD) : Buf (Elt Ideal) ((c : Thread nD τ).loc main_arg9) := m ((c : Thread nD τ).loc main_arg9)
/-- Argument 10 at launch. -/
abbrev a10 (c : Dev nD) : Buf (Elt Ideal) ((c : Thread nD τ).loc main_arg10) := m ((c : Thread nD τ).loc main_arg10)
/-- Argument 11 at launch. -/
abbrev a11 (c : Dev nD) : Buf (Elt Ideal) ((c : Thread nD τ).loc main_arg11) := m ((c : Thread nD τ).loc main_arg11)
/-- Argument 12 at launch. -/
abbrev a12 (c : Dev nD) : Buf (Elt Ideal) ((c : Thread nD τ).loc main_arg12) := m ((c : Thread nD τ).loc main_arg12)
/-- Argument 13 at launch. -/
abbrev a13 (c : Dev nD) : Buf (Elt Ideal) ((c : Thread nD τ).loc main_arg13) := m ((c : Thread nD τ).loc main_arg13)
/-- Argument 14 at launch. -/
abbrev a14 (c : Dev nD) : Buf (Elt Ideal) ((c : Thread nD τ).loc main_arg14) := m ((c : Thread nD τ).loc main_arg14)
/-- Argument 15 at launch. -/
abbrev a15 (c : Dev nD) : Buf (Elt Ideal) ((c : Thread nD τ).loc main_arg15) := m ((c : Thread nD τ).loc main_arg15)

/-- The first GIN region leaves the reference's first-layer stage of the arguments. -/
theorem layer1 (c : Dev nD) : W2 m ρ c (Proc.devRef .tc main_v12)
    = Cert.ReferenceIdeal.Read.val_main_v20 (F := Ideal) (a0 m c) (a1 m c) (a2 m c) (a4 m c) (a5 m c) (a6 m c) (a7 m c) := by
  refine (W2_arr m ρ c 6).trans (Cert.Gnn.Region0.array_eq (V1 m ρ) c
    (Cert.ReferenceIdeal.Read.val_main_v20 (F := Ideal) (a0 m c) (a1 m c) (a2 m c) (a4 m c) (a5 m c) (a6 m c) (a7 m c)) fun r q => ?_)
  refine (Cert.Gnn.RefRows.layer1_row (a0 m c) (a1 m c) (a2 m c) (a4 m c) (a5 m c) (a6 m c) (a7 m c) r q).trans ?_
  rw [Cert.Gnn.Stages.V1_arg0 m ρ c, Cert.Gnn.Stages.V1_v9 m ρ c, Cert.Gnn.Stages.V1_arg4 m ρ c, Cert.Gnn.Stages.V1_arg6 m ρ c,
    ← Cert.Gnn.HostAgree.v9_eq]
  simp only [Cert.Gnn.Stages.V1_v10 m ρ c, Cert.Gnn.Stages.V1_v11 m ρ c]

/-- The second GIN region leaves the reference's second-layer stage of the arguments. -/
theorem layer2 (c : Dev nD) : W4 m ρ c (Proc.devRef .tc main_v25)
    = Cert.ReferenceIdeal.Read.val_main_v41 (F := Ideal) (a0 m c) (a1 m c) (a2 m c) (a4 m c) (a5 m c) (a6 m c) (a7 m c) (a8 m c) (a9 m c) (a10 m c) (a11 m c) := by
  refine (W4_arr m ρ c 6).trans (Cert.Gnn.Region1.array_eq (V3 m ρ) c
    (Cert.ReferenceIdeal.Read.val_main_v41 (F := Ideal) (a0 m c) (a1 m c) (a2 m c) (a4 m c) (a5 m c) (a6 m c) (a7 m c) (a8 m c) (a9 m c) (a10 m c) (a11 m c)) fun r q => ?_)
  refine (Cert.Gnn.RefRows.layer2_row (a0 m c) (a1 m c) (a2 m c) (a4 m c) (a5 m c) (a6 m c) (a7 m c) (a8 m c) (a9 m c) (a10 m c) (a11 m c) r q).trans ?_
  rw [Cert.Gnn.Stages.V3_v12 m ρ c, Cert.Gnn.Stages.V3_v22 m ρ c, layer1 m ρ c, ← Cert.Gnn.HostAgree.v30_eq,
    Cert.Gnn.Stages.V3_arg8 m ρ c, Cert.Gnn.Stages.V3_arg10 m ρ c]
  simp only [Cert.Gnn.Stages.V3_v23 m ρ c, Cert.Gnn.Stages.V3_v24 m ρ c]

/-- The classifier region leaves the reference's result stage of the arguments. -/
theorem result (c : Dev nD) : W6 m ρ c (Proc.devRef .tc main_v39)
    = Cert.ReferenceIdeal.Read.val_main_v61 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  refine (W6_arr m ρ c 5).trans (Cert.Gnn.Region2.array_eq (V5 m ρ) c
    (Cert.ReferenceIdeal.Read.val_main_v61 (F := Ideal) (a0 m c) (a1 m c) (a2 m c) (a3 m c) (a4 m c) (a5 m c) (a6 m c) (a7 m c) (a8 m c) (a9 m c) (a10 m c) (a11 m c) (a12 m c) (a13 m c) (a14 m c) (a15 m c)) fun r q => ?_)
  refine (Cert.Gnn.RefRows.cls_row (a0 m c) (a1 m c) (a2 m c) (a3 m c) (a4 m c) (a5 m c) (a6 m c) (a7 m c) (a8 m c) (a9 m c) (a10 m c) (a11 m c) (a12 m c) (a13 m c) (a14 m c) (a15 m c) r q).trans ?_
  rw [Cert.Gnn.Stages.V5_v36 m ρ c, layer2 m ρ c, ← Cert.Gnn.HostAgree.v52_eq,
    Cert.Gnn.Stages.V5_arg12 m ρ c, Cert.Gnn.Stages.V5_arg14 m ρ c]
  simp only [Cert.Gnn.Stages.V5_v37 m ρ c, Cert.Gnn.Stages.V5_v38 m ρ c]

end Cert.Gnn.KernelValue

end
-- ==== Proof.lean ====
/-
  A two-layer GIN graph network with a mean-pooled classifier: the Pallas kernel program against its jnp reference, on the
  extended reals.

  Both programs compute, from node features `h`, edge lists `src`, `dst` and graph ids:
    layer(x) = relu(relu((x + aggregate x src dst) · W1 + b1) · W2 + b2),   h1 = layer_a(h),   h2 = layer_b(h1),
    out = relu(pool h2 ids · Wc1 + bc1) · Wc2 + bc2,
  where `aggregate` sums, into each node, the rows of the nodes its incoming edges start from, and `pool` is the mean of a
  graph's node rows.  The reference runs every step on the host over whole arrays.  The kernel program runs `aggregate` and
  `pool` on the host with the same operations, and each dense part in a kernel: the two layers cut into ten blocks of 5000
  rows, the classifier in one block.

  The two agree because every entry of a dense part's result depends on one row of its input and on the whole weights: a
  matrix product read at an entry is the same sum over the 128 inner positions whether the rows come in blocks or all at
  once, a bias recast as a one-row matrix and broadcast is the bias read at the column, and the maximum with 0.0 is taken
  against the same float word on both sides.  `aggregate` and `pool` are never opened: the proof shows they are fed equal
  arrays.  Nothing asks an entry to be finite, so the precondition is not used beyond the frames.

  The kernel program's run is six segments (host stretch, region, host stretch, region, host stretch, region); its last
  state is read buffer by buffer (Proof/KernelRun.lean), the buffers at each region's entry are read back to the arguments
  (Proof/Stages.lean), each region's write-backs are assembled into one array (Proof/Blocks*.lean, Proof/Region*.lean)
  whose rows are the layer's row function (Proof/KernelRows.lean, Proof/Spec.lean), and these arrays are the reference's own
  stages (Proof/RefRows.lean, Proof/HostAgree.lean, Proof/KernelValue.lean).  The idealized kernel is the kernel's own text
  read on the extended reals: the ideal pass rewrote nothing.
-/
import proofs.«147787_j70952859730187_1_alg».proof.Defs
import proofs.«147787_j70952859730187_1_alg».proof.Proof.Gen.Kernel
import proofs.«147787_j70952859730187_1_alg».proof.Proof.Gen.Kernel.Skeleton
import proofs.«147787_j70952859730187_1_alg».proof.Proof.Gen.Kernel.Launch
import proofs.«147787_j70952859730187_1_alg».proof.Proof.Gen.Kernel.Points
import proofs.«147787_j70952859730187_1_alg».proof.Proof.Gen.Kernel.Frame
import proofs.«147787_j70952859730187_1_alg».proof.Proof.Gen.KernelIdeal
import proofs.«147787_j70952859730187_1_alg».proof.Proof.Gen.KernelIdeal.Skeleton
import proofs.«147787_j70952859730187_1_alg».proof.Proof.Gen.KernelIdeal.Launch
import proofs.«147787_j70952859730187_1_alg».proof.Proof.Gen.KernelIdeal.Points
import proofs.«147787_j70952859730187_1_alg».proof.Proof.Gen.KernelIdeal.Frame
import proofs.«147787_j70952859730187_1_alg».proof.Proof.Gen.ReferenceIdeal
import proofs.«147787_j70952859730187_1_alg».proof.Proof.Gen.ReferenceIdeal.Run
import proofs.«147787_j70952859730187_1_alg».proof.Proof.Gen.ReferenceIdeal.Read
import proofs.«147787_j70952859730187_1_alg».proof.Proof.Gen.Pre_finite_inputs
import proofs.«147787_j70952859730187_1_alg».proof.Proof.KernelRun
import proofs.«147787_j70952859730187_1_alg».proof.Proof.KernelValue
import Idealize.ShloMosaic.Adequacy
import Idealize.ShloMosaic.Init

set_option maxRecDepth 16384

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- The kernel program read on the extended reals runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program: nothing to restate. -/
theorem preserves : Cert.preserves_Kernel_KernelIdeal := trivial

/-- From memories agreeing on the arguments both programs end with the same result: the reference's last stage of the
    arguments.  The kernel program's result buffer holds it by the three regions' arrays; the reference's holds it by its
    own run, the arguments' agreement rewritten. -/
theorem algebraic : Cert.algebraic_KernelIdeal_ReferenceIdeal := by
  intro m ρ m' ρ' _ hagree
  refine ⟨fun c => Cert.ReferenceIdeal.Read.val_main_v61 (F := Ideal) (Cert.Gnn.KernelValue.a0 m c) (Cert.Gnn.KernelValue.a1 m c) (Cert.Gnn.KernelValue.a2 m c) (Cert.Gnn.KernelValue.a3 m c) (Cert.Gnn.KernelValue.a4 m c) (Cert.Gnn.KernelValue.a5 m c) (Cert.Gnn.KernelValue.a6 m c) (Cert.Gnn.KernelValue.a7 m c) (Cert.Gnn.KernelValue.a8 m c) (Cert.Gnn.KernelValue.a9 m c) (Cert.Gnn.KernelValue.a10 m c) (Cert.Gnn.KernelValue.a11 m c) (Cert.Gnn.KernelValue.a12 m c) (Cert.Gnn.KernelValue.a13 m c) (Cert.Gnn.KernelValue.a14 m c) (Cert.Gnn.KernelValue.a15 m c), ?_, ?_⟩
  · exact (θ_run Cert.KernelIdeal.defs _ _).mono (fun r h c =>
      ⟨(h c _ (Cert.KernelIdeal.Gen.mem_uc Cert.KernelIdeal.main_v39 (by decide))).trans (Cert.Gnn.KernelValue.result m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c),
       (h c _ (Cert.KernelIdeal.Gen.mem_uc Cert.KernelIdeal.main_arg6 (by decide))).trans (Cert.KernelIdeal.Gen.W6_main_arg6 m ρ c),
       (h c _ (Cert.KernelIdeal.Gen.mem_uc Cert.KernelIdeal.main_arg7 (by decide))).trans (Cert.KernelIdeal.Gen.W6_main_arg7 m ρ c),
       (h c _ (Cert.KernelIdeal.Gen.mem_uc Cert.KernelIdeal.main_arg8 (by decide))).trans (Cert.KernelIdeal.Gen.W6_main_arg8 m ρ c),
       (h c _ (Cert.KernelIdeal.Gen.mem_uc Cert.KernelIdeal.main_arg9 (by decide))).trans (Cert.KernelIdeal.Gen.W6_main_arg9 m ρ c),
       (h c _ (Cert.KernelIdeal.Gen.mem_uc Cert.KernelIdeal.main_arg10 (by decide))).trans (Cert.KernelIdeal.Gen.W6_main_arg10 m ρ c),
       (h c _ (Cert.KernelIdeal.Gen.mem_uc Cert.KernelIdeal.main_arg11 (by decide))).trans (Cert.KernelIdeal.Gen.W6_main_arg11 m ρ c),
       (h c _ (Cert.KernelIdeal.Gen.mem_uc Cert.KernelIdeal.main_arg12 (by decide))).trans (Cert.KernelIdeal.Gen.W6_main_arg12 m ρ c),
       (h c _ (Cert.KernelIdeal.Gen.mem_uc Cert.KernelIdeal.main_arg13 (by decide))).trans (Cert.KernelIdeal.Gen.W6_main_arg13 m ρ c),
       (h c _ (Cert.KernelIdeal.Gen.mem_uc Cert.KernelIdeal.main_arg14 (by decide))).trans (Cert.KernelIdeal.Gen.W6_main_arg14 m ρ c),
       (h c _ (Cert.KernelIdeal.Gen.mem_uc Cert.KernelIdeal.main_arg15 (by decide))).trans (Cert.KernelIdeal.Gen.W6_main_arg15 m ρ c)⟩)
      (Cert.KernelIdeal.Run.run_all m ρ)
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v61_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
